-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3 : Shape := ⟨3, ![2, 4096, 3]⟩
abbrev S2x4096x4 : Shape := ⟨3, ![2, 4096, 4]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S2x4096x4 : S_.BroadcastsInDim S2x4096x4 (![] : Fin 0 → Fin S2x4096x4.rank)
  reducesTo_S2x4096x4_S_d0_1_2 : S2x4096x4.ReducesTo [0, 1, 2] S_

variable [Facts]

def fn {F : FTy → Type} [FloatOps F] (main_arg0 : FVec F S2x4096x3 .f32) (main_arg1 : FVec F S2x4096x3 .f32) (main_arg2 : FVec F S2x4096x4 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S2x4096x3 .f32 := Host.absf main_arg1
  let main_cst_0 : FVec F S_ .f32 := constant S_ .f32 0x7F800000#32
  let main_v5 : FVec F S2x4096x3 .f32 := broadcastInDim S2x4096x3 ![] bcast_S_S2x4096x3 main_cst_0
  let main_v6 : IVec S2x4096x3 1 := cmpf .olt main_v4 main_v5
  let main_c_1 : IVec S_ 1 := constantI S_ 1 1#1
  let main_v7 : IVec S_ 1 := (fun x v => Host.reduce IntOp.andi x v reducesTo_S2x4096x3_S_d0_1_2 h_S_) main_v6 main_c_1
  let main_v8 : IVec S_ 1 := andi main_v3 main_v7
  let main_v9 : FVec F S2x4096x4 .f32 := Host.absf main_arg2
  let main_cst_2 : FVec F S_ .f32 := constant S_ .f32 0x7F800000#32
  let main_v10 : FVec F S2x4096x4 .f32 := broadcastInDim S2x4096x4 ![] bcast_S_S2x4096x4 main_cst_2
  let main_v11 : IVec S2x4096x4 1 := cmpf .olt main_v9 main_v10
  let main_c_3 : IVec S_ 1 := constantI S_ 1 1#1
  let main_v12 : IVec S_ 1 := (fun x v => Host.reduce IntOp.andi x v reducesTo_S2x4096x4_S_d0_1_2 h_S_) main_v11 main_c_3
  let main_v13 : IVec S_ 1 := andi main_v8 main_v12
  main_v13
-- ==== Kernel.lean ====
abbrev S2x4096x3 : Shape := ⟨3, ![2, 4096, 3]⟩
abbrev S2x4096x4 : Shape := ⟨3, ![2, 4096, 4]⟩
abbrev S2x3x4096 : Shape := ⟨3, ![2, 3, 4096]⟩
abbrev S2x4x4096 : Shape := ⟨3, ![2, 4, 4096]⟩
abbrev S2x1x1 : Shape := ⟨3, ![2, 1, 1]⟩
abbrev S1x256x3 : Shape := ⟨3, ![1, 256, 3]⟩
abbrev S1x256x4 : Shape := ⟨3, ![1, 256, 4]⟩
abbrev S1x3x256 : Shape := ⟨3, ![1, 3, 256]⟩
abbrev S1x4x256 : Shape := ⟨3, ![1, 4, 256]⟩
abbrev S1x1x1 : Shape := ⟨3, ![1, 1, 1]⟩
abbrev S1x1 : Shape := ⟨2, ![1, 1]⟩
abbrev S256x3 : Shape := ⟨2, ![256, 3]⟩
abbrev S256x4 : Shape := ⟨2, ![256, 4]⟩
abbrev S3x256 : Shape := ⟨2, ![3, 256]⟩
abbrev S4x256 : Shape := ⟨2, ![4, 256]⟩
abbrev S256x1 : Shape := ⟨2, ![256, 1]⟩
abbrev S1x256 : Shape := ⟨2, ![1, 256]⟩
abbrev S256x256 : Shape := ⟨2, ![256, 256]⟩
abbrev S256 : Shape := ⟨1, ![256]⟩
abbrev S1 : Shape := ⟨1, ![1]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S2x4096x4, .f32⟩
  | .hbm, ⟨3, _⟩ => ⟨S2x3x4096, .f32⟩
  | .hbm, ⟨4, _⟩ => ⟨S2x3x4096, .f32⟩
  | .hbm, ⟨5, _⟩ => ⟨S2x4x4096, .f32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x256x3, .f32⟩
  | .local _ .vmem, ⟨3, _⟩ => ⟨S1x256x3, .f32⟩
  | .local _ .vmem, ⟨4, _⟩ => ⟨S1x256x4, .f32⟩
  | .local _ .vmem, ⟨5, _⟩ => ⟨S1x256x4, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x4x256, .f32⟩
  | .local _ .vmem, ⟨11, _⟩ => ⟨S1x4x256, .f32⟩
  | .local _ .vmem, ⟨12, _⟩ => ⟨S1x1x1, .f32⟩
  | .local _ .vmem, ⟨13, _⟩ => ⟨S1x1x1, .f32⟩
  | .local _ .vmem, ⟨14, _⟩ => ⟨S1x1, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 16], ![false, false, false]⟩

def k0_cond2 (i : grid0.Coords) : BitVec 1 :=
  let arg1 : BitVec 32 := BitVec.ofNat 32 (i 1).val
  let c15_i32 : BitVec 32 := 15#32
  let v299 : BitVec 1 := Scalar.cmpi .eq arg1 c15_i32
  let arg2 : BitVec 32 := BitVec.ofNat 32 (i 2).val
  let c15_i32_72 : BitVec 32 := 15#32
  let v300 : BitVec 1 := Scalar.cmpi .eq arg2 c15_i32_72
  let v301 : BitVec 1 := Scalar.andi v299 v300
  let v302 : BitVec 32 := Scalar.extui v301
  let c0_i32_73 : BitVec 32 := 0#32
  let v303 : BitVec 1 := Scalar.cmpi .ne v302 c0_i32_73
  v303

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  transposes_S2x4096x3_S2x3x4096_0_2_1 : S2x4096x3.Transposes [0, 2, 1] S2x3x4096
  transposes_S2x4096x4_S2x4x4096_0_2_1 : S2x4096x4.Transposes [0, 2, 1] S2x4x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  slices_S256x3_o0_0_S256x1 : S256x3.Slices ![0, 0] S256x1
  slices_S256x3_o0_1_S256x1 : S256x3.Slices ![0, 1] S256x1
  slices_S256x3_o0_2_S256x1 : S256x3.Slices ![0, 2] S256x1
  slices_S3x256_o0_0_S1x256 : S3x256.Slices ![0, 0] S1x256
  slices_S3x256_o1_0_S1x256 : S3x256.Slices ![1, 0] S1x256
  slices_S3x256_o2_0_S1x256 : S3x256.Slices ![2, 0] S1x256
  broadcasts_S256x1_S256x256 : S256x1.Broadcasts S256x256
  broadcasts_S1x256_S256x256 : S1x256.Broadcasts S256x256
  slices_S256x4_o0_0_S256x1 : S256x4.Slices ![0, 0] S256x1
  slices_S256x4_o0_1_S256x1 : S256x4.Slices ![0, 1] S256x1
  slices_S256x4_o0_2_S256x1 : S256x4.Slices ![0, 2] S256x1
  slices_S256x4_o0_3_S256x1 : S256x4.Slices ![0, 3] S256x1
  slices_S4x256_o0_0_S1x256 : S4x256.Slices ![0, 0] S1x256
  slices_S4x256_o1_0_S1x256 : S4x256.Slices ![1, 0] S1x256
  slices_S4x256_o2_0_S1x256 : S4x256.Slices ![2, 0] S1x256
  slices_S4x256_o3_0_S1x256 : S4x256.Slices ![3, 0] S1x256
  iota_S256x1_d0_w32 : S256x1.Iotas .tc 32 [0]
  iota_S1x256_d1_w32 : S1x256.Iotas .tc 32 [1]
  reduces_S256x256_S256 : S256x256.Reduces [1] S256
  shapeCasts_S256_S256x1 : S256.ShapeCasts S256x1
  reduces_S256x1_S1 : S256x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S2x4096x3.size a
  hwx0_0 : ∀ i : grid0.Coords, EltTy.bits .f32 = 32 ∨ (Rect.block (s := S2x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S2x4096x3.size a
  hwx0_1 : ∀ i : grid0.Coords, EltTy.bits .f32 = 32 ∨ (Rect.block (s := S2x4096x3) S1x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4.size a ≤ S2x4096x4.size a
  hwx0_2 : ∀ i : grid0.Coords, EltTy.bits .f32 = 32 ∨ (Rect.block (s := S2x4096x4) S1x256x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x256.size a ≤ S2x3x4096.size a
  hwx0_3 : ∀ i : grid0.Coords, EltTy.bits .f32 = 32 ∨ (Rect.block (s := S2x3x4096) S1x3x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x256.size a ≤ S2x3x4096.size a
  hwx0_4 : ∀ i : grid0.Coords, EltTy.bits .f32 = 32 ∨ (Rect.block (s := S2x3x4096) S1x3x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x256.size a ≤ S2x4x4096.size a
  hwx0_5 : ∀ i : grid0.Coords, EltTy.bits .f32 = 32 ∨ (Rect.block (s := S2x4x4096) S1x4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x3x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2x4096x3 : Shape := ⟨3, ![2, 4096, 3]⟩
abbrev S2x4096x4 : Shape := ⟨3, ![2, 4096, 4]⟩
abbrev S2x4096x1x3 : Shape := ⟨4, ![2, 4096, 1, 3]⟩
abbrev S2x1x4096x3 : Shape := ⟨4, ![2, 1, 4096, 3]⟩
abbrev S2x4096x4096x3 : Shape := ⟨4, ![2, 4096, 4096, 3]⟩
abbrev S_ : Shape := ⟨0, ![]⟩
abbrev S2x4096x4096 : Shape := ⟨3, ![2, 4096, 4096]⟩
abbrev S2x4096x4096x1 : Shape := ⟨4, ![2, 4096, 4096, 1]⟩
abbrev S2x4096x1 : Shape := ⟨3, ![2, 4096, 1]⟩
abbrev S2x4096 : Shape := ⟨2, ![2, 4096]⟩
abbrev S2x4096x9 : Shape := ⟨3, ![2, 4096, 9]⟩
abbrev S2x4096x3x3 : Shape := ⟨4, ![2, 4096, 3, 3]⟩
abbrev S4096x4096 : Shape := ⟨2, ![4096, 4096]⟩
abbrev S1x4096x4096 : Shape := ⟨3, ![1, 4096, 4096]⟩

abbrev nBuf : Space → Nat
  | .hbm => 179
  | .vmem => 0
  | .smem => 0
  | _ => 0

abbrev hbmTy0_0 (i : Nat) : BufTy := match i % 128 with
  | 0 => ⟨S2x4096x3, .f32⟩
  | 1 => ⟨S2x4096x3, .f32⟩
  | 2 => ⟨S2x4096x4, .f32⟩
  | 3 => ⟨S2x4096x1x3, .f32⟩
  | 4 => ⟨S2x1x4096x3, .f32⟩
  | 5 => ⟨S2x4096x4096x3, .f32⟩
  | 6 => ⟨S2x4096x4096x3, .f32⟩
  | 7 => ⟨S2x4096x4096x3, .f32⟩
  | 8 => ⟨S2x4096x4096x3, .f32⟩
  | 9 => ⟨S_, .f32⟩
  | 10 => ⟨S2x4096x4096, .f32⟩
  | 11 => ⟨S_, .f32⟩
  | 12 => ⟨S2x4096x4096, .f32⟩
  | 13 => ⟨S2x4096x4096, .f32⟩
  | 14 => ⟨S2x4096x4096, .f32⟩
  | 15 => ⟨S2x4096x4096x1, .f32⟩
  | 16 => ⟨S2x4096x4096x3, .f32⟩
  | 17 => ⟨S2x4096x4096x3, .f32⟩
  | 18 => ⟨S2x4096x1, .f32⟩
  | 19 => ⟨S2x4096, .f32⟩
  | 20 => ⟨S2x4096x1, .f32⟩
  | 21 => ⟨S2x4096, .f32⟩
  | 22 => ⟨S2x4096x1, .f32⟩
  | 23 => ⟨S2x4096, .f32⟩
  | 24 => ⟨S2x4096x1, .f32⟩
  | 25 => ⟨S2x4096, .f32⟩
  | 26 => ⟨S2x4096, .f32⟩
  | 27 => ⟨S_, .f32⟩
  | 28 => ⟨S2x4096, .f32⟩
  | 29 => ⟨S2x4096, .f32⟩
  | 30 => ⟨S_, .f32⟩
  | 31 => ⟨S2x4096, .f32⟩
  | 32 => ⟨S2x4096, .f32⟩
  | 33 => ⟨S2x4096, .f32⟩
  | 34 => ⟨S_, .f32⟩
  | 35 => ⟨S2x4096, .f32⟩
  | 36 => ⟨S2x4096, .f32⟩
  | 37 => ⟨S2x4096, .f32⟩
  | 38 => ⟨S_, .f32⟩
  | 39 => ⟨S2x4096, .f32⟩
  | 40 => ⟨S2x4096, .f32⟩
  | 41 => ⟨S2x4096, .f32⟩
  | 42 => ⟨S_, .f32⟩
  | 43 => ⟨S2x4096, .f32⟩
  | 44 => ⟨S2x4096, .f32⟩
  | 45 => ⟨S2x4096, .f32⟩
  | 46 => ⟨S2x4096, .f32⟩
  | 47 => ⟨S_, .f32⟩
  | 48 => ⟨S2x4096, .f32⟩
  | 49 => ⟨S2x4096, .f32⟩
  | 50 => ⟨S2x4096, .f32⟩
  | 51 => ⟨S_, .f32⟩
  | 52 => ⟨S2x4096, .f32⟩
  | 53 => ⟨S2x4096, .f32⟩
  | 54 => ⟨S2x4096, .f32⟩
  | 55 => ⟨S2x4096, .f32⟩
  | 56 => ⟨S_, .f32⟩
  | 57 => ⟨S2x4096, .f32⟩
  | 58 => ⟨S2x4096, .f32⟩
  | 59 => ⟨S2x4096, .f32⟩
  | 60 => ⟨S_, .f32⟩
  | 61 => ⟨S2x4096, .f32⟩
  | 62 => ⟨S2x4096, .f32⟩
  | 63 => ⟨S2x4096, .f32⟩
  | 64 => ⟨S2x4096, .f32⟩
  | 65 => ⟨S2x4096, .f32⟩
  | 66 => ⟨S_, .f32⟩
  | 67 => ⟨S2x4096, .f32⟩
  | 68 => ⟨S2x4096, .f32⟩
  | 69 => ⟨S_, .f32⟩
  | 70 => ⟨S2x4096, .f32⟩
  | 71 => ⟨S2x4096, .f32⟩
  | 72 => ⟨S2x4096, .f32⟩
  | 73 => ⟨S_, .f32⟩
  | 74 => ⟨S2x4096, .f32⟩
  | 75 => ⟨S2x4096, .f32⟩
  | 76 => ⟨S2x4096, .f32⟩
  | 77 => ⟨S_, .f32⟩
  | 78 => ⟨S2x4096, .f32⟩
  | 79 => ⟨S2x4096, .f32⟩
  | 80 => ⟨S2x4096, .f32⟩
  | 81 => ⟨S_, .f32⟩
  | 82 => ⟨S2x4096, .f32⟩
  | 83 => ⟨S2x4096, .f32⟩
  | 84 => ⟨S2x4096, .f32⟩
  | 85 => ⟨S2x4096, .f32⟩
  | 86 => ⟨S_, .f32⟩
  | 87 => ⟨S2x4096, .f32⟩
  | 88 => ⟨S2x4096, .f32⟩
  | 89 => ⟨S2x4096, .f32⟩
  | 90 => ⟨S_, .f32⟩
  | 91 => ⟨S2x4096, .f32⟩
  | 92 => ⟨S2x4096, .f32⟩
  | 93 => ⟨S2x4096, .f32⟩
  | 94 => ⟨S2x4096, .f32⟩
  | 95 => ⟨S_, .f32⟩
  | 96 => ⟨S2x4096, .f32⟩
  | 97 => ⟨S2x4096, .f32⟩
  | 98 => ⟨S2x4096, .f32⟩
  | 99 => ⟨S_, .f32⟩
  | 100 => ⟨S2x4096, .f32⟩
  | 101 => ⟨S2x4096, .f32⟩
  | 102 => ⟨S2x4096, .f32⟩
  | 103 => ⟨S2x4096, .f32⟩
  | 104 => ⟨S2x4096, .f32⟩
  | 105 => ⟨S_, .f32⟩
  | 106 => ⟨S2x4096, .f32⟩
  | 107 => ⟨S2x4096, .f32⟩
  | 108 => ⟨S_, .f32⟩
  | 109 => ⟨S2x4096, .f32⟩
  | 110 => ⟨S2x4096, .f32⟩
  | 111 => ⟨S2x4096, .f32⟩
  | 112 => ⟨S_, .f32⟩
  | 113 => ⟨S2x4096, .f32⟩
  | 114 => ⟨S2x4096, .f32⟩
  | 115 => ⟨S2x4096, .f32⟩
  | 116 => ⟨S2x4096x1, .f32⟩
  | 117 => ⟨S2x4096x1, .f32⟩
  | 118 => ⟨S2x4096x1, .f32⟩
  | 119 => ⟨S2x4096x1, .f32⟩
  | 120 => ⟨S2x4096x1, .f32⟩
  | 121 => ⟨S2x4096x1, .f32⟩
  | 122 => ⟨S2x4096x1, .f32⟩
  | 123 => ⟨S2x4096x1, .f32⟩
  | 124 => ⟨S2x4096x1, .f32⟩
  | 125 => ⟨S2x4096x9, .f32⟩
  | 126 => ⟨S2x4096x3x3, .f32⟩
  | 127 => ⟨S2x4096x4096x3, .f32⟩
  | _ => ⟨S2x4096x3, .f32⟩

abbrev hbmTy0_1 (i : Nat) : BufTy := match i % 128 with
  | 0 => ⟨S2x1x4096x3, .f32⟩
  | 1 => ⟨S2x4096x4096x3, .f32⟩
  | 2 => ⟨S2x4096x4096x3, .f32⟩
  | 3 => ⟨S2x4096x4096x3, .f32⟩
  | 4 => ⟨S_, .f32⟩
  | 5 => ⟨S2x4096x4096, .f32⟩
  | 6 => ⟨S_, .f32⟩
  | 7 => ⟨S2x4096x4096, .f32⟩
  | 8 => ⟨S2x4096x4096, .i1⟩
  | 9 => ⟨S_, .f32⟩
  | 10 => ⟨S2x4096x4096, .f32⟩
  | 11 => ⟨S2x4096x4096, .i1⟩
  | 12 => ⟨S_, .f32⟩
  | 13 => ⟨S_, .f32⟩
  | 14 => ⟨S2x4096x4096, .f32⟩
  | 15 => ⟨S2x4096x4096, .f32⟩
  | 16 => ⟨S2x4096x4096, .f32⟩
  | 17 => ⟨S_, .f32⟩
  | 18 => ⟨S_, .f32⟩
  | 19 => ⟨S2x4096x4096, .f32⟩
  | 20 => ⟨S2x4096x4096, .f32⟩
  | 21 => ⟨S2x4096x4096, .f32⟩
  | 22 => ⟨S2x4096x4096, .f32⟩
  | 23 => ⟨S2x4096x4096, .f32⟩
  | 24 => ⟨S_, .f32⟩
  | 25 => ⟨S2x4096x4096, .f32⟩
  | 26 => ⟨S2x4096x4096, .f32⟩
  | 27 => ⟨S2x4096x4096, .f32⟩
  | 28 => ⟨S_, .f32⟩
  | 29 => ⟨S2x4096x4096, .f32⟩
  | 30 => ⟨S2x4096x4096, .f32⟩
  | 31 => ⟨S_, .f32⟩
  | 32 => ⟨S2x4096x4096, .f32⟩
  | 33 => ⟨S2x4096x4096, .f32⟩
  | 34 => ⟨S2x4096x4096, .f32⟩
  | 35 => ⟨S4096x4096, .i32⟩
  | 36 => ⟨S4096x4096, .i32⟩
  | 37 => ⟨S_, .i32⟩
  | 38 => ⟨S4096x4096, .i32⟩
  | 39 => ⟨S4096x4096, .i32⟩
  | 40 => ⟨S4096x4096, .i1⟩
  | 41 => ⟨S1x4096x4096, .i1⟩
  | 42 => ⟨S_, .f32⟩
  | 43 => ⟨S_, .f32⟩
  | 44 => ⟨S2x4096x4096, .i1⟩
  | 45 => ⟨S2x4096x4096, .f32⟩
  | 46 => ⟨S2x4096x4096, .f32⟩
  | 47 => ⟨S_, .f32⟩
  | 48 => ⟨S_, .f32⟩
  | 49 => ⟨S_, .f32⟩
  | 50 => ⟨S_, .f32⟩
  | _ => ⟨S2x4096x3, .f32⟩

abbrev hbmTy (i : Nat) : BufTy := match i / 128 with
  | 0 => hbmTy0_0 i
  | 1 => hbmTy0_1 i
  | _ => ⟨S2x4096x3, .f32⟩

abbrev bufTy : (tb : Table) → Fin (tcTables nBuf tb) → BufTy
  | .hbm, ⟨i, _⟩ => hbmTy i
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_19 : Ref sig .tc := ⟨.hbm, 105, rfl⟩
abbrev main_v82 : Ref sig .tc := ⟨.hbm, 106, rfl⟩
abbrev main_v83 : Ref sig .tc := ⟨.hbm, 107, rfl⟩
abbrev main_cst_20 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_21 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_22 : Ref sig .tc := ⟨.hbm, 132, rfl⟩
abbrev main_v106 : Ref sig .tc := ⟨.hbm, 133, rfl⟩
abbrev main_cst_23 : Ref sig .tc := ⟨.hbm, 134, rfl⟩
abbrev main_v107 : Ref sig .tc := ⟨.hbm, 135, rfl⟩
abbrev main_v108 : Ref sig .tc := ⟨.hbm, 136, rfl⟩
abbrev main_cst_24 : Ref sig .tc := ⟨.hbm, 137, rfl⟩
abbrev main_v109 : Ref sig .tc := ⟨.hbm, 138, rfl⟩
abbrev main_v110 : Ref sig .tc := ⟨.hbm, 139, rfl⟩
abbrev main_cst_25 : Ref sig .tc := ⟨.hbm, 140, rfl⟩
abbrev main_call0_v0 : Ref sig .tc := ⟨.hbm, 141, rfl⟩
abbrev main_call0_v1 : Ref sig .tc := ⟨.hbm, 142, rfl⟩
abbrev main_v111 : Ref sig .tc := ⟨.hbm, 143, rfl⟩
abbrev main_v112 : Ref sig .tc := ⟨.hbm, 144, rfl⟩
abbrev main_cst_26 : Ref sig .tc := ⟨.hbm, 145, rfl⟩
abbrev main_call1_v0 : Ref sig .tc := ⟨.hbm, 146, rfl⟩
abbrev main_call1_v1 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_call2_cst : Ref sig .tc := ⟨.hbm, 152, rfl⟩
abbrev main_call2_v0 : Ref sig .tc := ⟨.hbm, 153, rfl⟩
abbrev main_v117 : Ref sig .tc := ⟨.hbm, 154, rfl⟩
abbrev main_v118 : Ref sig .tc := ⟨.hbm, 155, rfl⟩
abbrev main_cst_27 : Ref sig .tc := ⟨.hbm, 156, rfl⟩
abbrev main_v119 : Ref sig .tc := ⟨.hbm, 157, rfl⟩
abbrev main_v120 : Ref sig .tc := ⟨.hbm, 158, rfl⟩
abbrev main_cst_28 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_29 : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_v130 : Ref sig .tc := ⟨.hbm, 174, rfl⟩
abbrev main_cst_30 : Ref sig .tc := ⟨.hbm, 175, rfl⟩
abbrev main_v131 : Ref sig .tc := ⟨.hbm, 176, rfl⟩
abbrev main_cst_31 : Ref sig .tc := ⟨.hbm, 177, rfl⟩
abbrev main_v132 : Ref sig .tc := ⟨.hbm, 178, rfl⟩

abbrev nD : Nat := 1
abbrev τ : Topo := Topo.v7x

variable {F : FTy → Type} [FloatOps F]

class Facts₀ : Prop where
  bcast_S2x4096x3_S2x4096x1x3_0_1_3 : S2x4096x3.BroadcastsInDim S2x4096x1x3 (![0, 1, 3] : Fin 3 → Fin S2x4096x1x3.rank)
  bcast_S2x4096x3_S2x1x4096x3_0_2_3 : S2x4096x3.BroadcastsInDim S2x1x4096x3 (![0, 2, 3] : Fin 3 → Fin S2x1x4096x3.rank)
  bcast_S2x4096x1x3_S2x4096x4096x3_0_1_2_3 : S2x4096x1x3.BroadcastsInDim S2x4096x4096x3 (![0, 1, 2, 3] : Fin 4 → Fin S2x4096x4096x3.rank)
  bcast_S2x1x4096x3_S2x4096x4096x3_0_1_2_3 : S2x1x4096x3.BroadcastsInDim S2x4096x4096x3 (![0, 1, 2, 3] : Fin 4 → Fin S2x4096x4096x3.rank)
  reducesTo_S2x4096x4096x3_S2x4096x4096_d3 : S2x4096x4096x3.ReducesTo [3] S2x4096x4096
  h_S_ : 0 < S_.numel
  bcast_S_S2x4096x4096 : S_.BroadcastsInDim S2x4096x4096 (![] : Fin 0 → Fin S2x4096x4096.rank)
  bcast_S2x4096x4096_S2x4096x4096x1_0_1_2 : S2x4096x4096.BroadcastsInDim S2x4096x4096x1 (![0, 1, 2] : Fin 3 → Fin S2x4096x4096x1.rank)
  bcast_S2x4096x4096x1_S2x4096x4096x3_0_1_2_3 : S2x4096x4096x1.BroadcastsInDim S2x4096x4096x3 (![0, 1, 2, 3] : Fin 4 → Fin S2x4096x4096x3.rank)
  slices_S2x4096x4_S2x4096x1_0_0_0 : S2x4096x4.Slices ![0, 0, 0] S2x4096x1
  shapeCasts_S2x4096x1_S2x4096 : S2x4096x1.ShapeCasts S2x4096
  slices_S2x4096x4_S2x4096x1_0_0_1 : S2x4096x4.Slices ![0, 0, 1] S2x4096x1
  slices_S2x4096x4_S2x4096x1_0_0_2 : S2x4096x4.Slices ![0, 0, 2] S2x4096x1
  slices_S2x4096x4_S2x4096x1_0_0_3 : S2x4096x4.Slices ![0, 0, 3] S2x4096x1
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  concatenates_S2x4096x1_S2x4096x1_S2x4096x1_S2x4096x1_S2x4096x1_S2x4096x1_S2x4096x1_S2x4096x1_S2x4096x1_S2x4096x9_d2 : Shape.Concatenates [S2x4096x1, S2x4096x1, S2x4096x1, S2x4096x1, S2x4096x1, S2x4096x1, S2x4096x1, S2x4096x1, S2x4096x1] S2x4096x9 2
  shapeCasts_S2x4096x9_S2x4096x3x3 : S2x4096x9.ShapeCasts S2x4096x3x3
  transposes_S2x4096x4096_S2x4096x4096_0_2_1 : S2x4096x4096.Transposes [0, 2, 1] S2x4096x4096
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S2x4096x4096_0_1_2 : S1x4096x4096.BroadcastsInDim S2x4096x4096 (![0, 1, 2] : Fin 3 → Fin S2x4096x4096.rank)
  reducesTo_S2x4096x4096_S_d0_1_2 : S2x4096x4096.ReducesTo [0, 1, 2] S_
  dot_S2x4096x4096x3_S2x4096x3x3_S2x4096x4096x3_3_2_2_3_01_01_wf : DotDims.WF S2x4096x4096x3 S2x4096x3x3 S2x4096x4096x3 [3] [2] [2] [3] [0, 1] [0, 1]

variable [Facts₀]

def dot_S2x4096x4096x3_S2x4096x3x3_S2x4096x4096x3_3_2_2_3_01_01 : DotDims S2x4096x4096x3 S2x4096x3x3 S2x4096x4096x3 where
  lhsContracting := [3]
  rhsContracting := [2]
  lhsNonContracting := [2]
  rhsNonContracting := [3]
  lhsBatch := [0, 1]
  rhsBatch := [0, 1]
  wf := dot_S2x4096x4096x3_S2x4096x3x3_S2x4096x4096x3_3_2_2_3_01_01_wf

class Facts : Prop extends Facts₀ where

variable [Facts]
-- ==== Proof.TileTerm.lean ====
/-
  The tile of penalties as one function of the six blocks a grid point loads.

  At a grid point the body loads a block of 256 points' positions, scales and quaternions (the ROW points, one
  point per row, shapes [1, 256, 3], [1, 256, 3], [1, 256, 4]) and the transposed blocks of 256 COLUMN points
  (shapes [1, 3, 256], [1, 3, 256], [1, 4, 256]), and computes, for every row point r and column point c, the
  penalty of the ordered pair (r, c) before the diagonal is masked. The body's arithmetic is printed in pieces, each a
  pure function of earlier pieces; `pen` composes the pieces in the body's order, so that the tile is a single
  term of the six blocks, at any float instance.
-/
import proofs.«114842_j77025943486733_1_alg».proof.Proof.Gen.KernelIdeal.Skeleton

noncomputable section

namespace Cert.KernelIdeal.Tile

open Idealize.ShloMosaic Cert.KernelIdeal Cert.KernelIdeal.Gen

variable {F : FTy → Type} [FloatOps F]

/-- The 256 × 256 tile of unmasked penalties: rows from the blocks `x0 x1 x2` (positions, scales, quaternions of the
    row points), columns from the transposed blocks `x3 x4 x5` (the same of the column points). -/
def pen (x0 x1 : Vec F S1x256x3 .f32) (x2 : Vec F S1x256x4 .f32) (x3 x4 : Vec F S1x3x256 .f32)
    (x5 : Vec F S1x4x256 .f32) : FVec F S256x256 .f32 :=
  -- the blocks with the leading unit axis dropped, and the three coordinate differences and part of their squares
  let v8 := k0_pay5 x1
  let v10 := k0_pay6 x2
  let v14 := k0_pay8 x4
  let v16 := k0_pay9 x5
  let v25 := k0_pay10 x0 x3
  let v28 := k0_pay11 x0 x3
  let v31 := k0_pay12 x0 x3
  let v34 := k0_pay13 x0 x3
  -- the distance, the direction, the columns of the blocks, the first entries of the row points' rotations
  let v39 := k0_pay14 v31 v34
  let v40 := k0_pay15 v25 v31 v34
  let v41 := k0_pay16 v28 v31 v34
  let v42 := k0_pay17 v31 v34
  let v43 := k0_pay18 v10
  let v44 := k0_pay19 v10
  let v45 := k0_pay20 v10
  let v46 := k0_pay21 v10
  let v47 := k0_pay22 v16
  let v48 := k0_pay23 v16
  let v49 := k0_pay24 v16
  let v50 := k0_pay25 v16
  let v51 := k0_pay26 v8
  let v52 := k0_pay27 v8
  let v53 := k0_pay28 v8
  let v54 := k0_pay29 v14
  let v55 := k0_pay30 v14
  let v56 := k0_pay31 v14
  let v65 := k0_pay32 v10
  let v72 := k0_pay33 v10
  let v79 := k0_pay34 v10
  let v82 := k0_pay35 v10
  let v84 := k0_pay36 v10
  -- the remaining entries of the row points' rotations and the first products with the direction
  let v95 := k0_pay37 v44 v46
  let v102 := k0_pay38 v43 v44 v45 v46
  let v116 := k0_pay39 v43 v44 v45 v46
  let v125 := k0_pay40 v44 v45
  let v130 := k0_pay41 v40 v41 v43 v65 v82 v84
  let v132 := k0_pay42 v42 v43 v44 v45 v46
  -- the first radius, and the first entries of the column points' rotations
  let cst_47 : F .f32 := Scalar.ofBits .f32 0x40000000#32
  let v161 := k0_pay43 v40 v41 v42 v54 v55 v56 v72 v79 v95 v102 v116 v125 v130 v132
  let v170 := k0_pay44 v49 v50
  let v177 := k0_pay45 v47 v48 v49 v50
  let v184 := k0_pay46 v47 v48 v49 v50
  -- the remaining entries of the column points' rotations
  let v191 := k0_pay47 v47 v48 v49 v50 cst_47
  let v200 := k0_pay48 v48 v50
  let v207 := k0_pay49 v47 v48 v49 v50
  let v214 := k0_pay50 v47 v48 v49 v50
  let v221 := k0_pay51 v47 v48 v49 v50
  let v230 := k0_pay52 v48 v49
  let v231 := k0_pay53 v170
  -- the second radius, the overlap and its penalty
  k0_pay54 v39 v40 v41 v42 v51 v52 v53 v161 v177 v184 v191 v200 v207 v214 v221 v230 v231

end Cert.KernelIdeal.Tile

end
-- ==== Proof.Pieces.lean ====
/-
  What the body leaves in the accumulator and in the output block, case by case, as pure functions of the six
  blocks it loads and of the accumulator it finds.

  A batch's 256 grid points share one accumulator cell. At a batch's first point the cell is zeroed and then
  receives zero plus the point's tile sum; at every later point it receives its previous contents plus the tile sum;
  at the batch's last point the output block additionally receives the cell's final contents. Each statement below
  reads the stores a case performs back into one value: the last store through the whole cell is its contents.
-/
import proofs.«114842_j77025943486733_1_alg».proof.Proof.Gen.KernelIdeal.Frame
import proofs.«114842_j77025943486733_1_alg».proof.Proof.TileTerm
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (c : Dev nD) (i : grid0.Coords)
  (arg3 : Memref sig .tc .vmem S1x256x3 .f32) (harg3 : arg3.IsWhole) (arg4 : Memref sig .tc .vmem S1x256x3 .f32) (harg4 : arg4.IsWhole)
  (arg5 : Memref sig .tc .vmem S1x256x4 .f32) (harg5 : arg5.IsWhole) (arg6 : Memref sig .tc .vmem S1x3x256 .f32) (harg6 : arg6.IsWhole)
  (arg7 : Memref sig .tc .vmem S1x3x256 .f32) (harg7 : arg7.IsWhole) (arg8 : Memref sig .tc .vmem S1x4x256 .f32) (harg8 : arg8.IsWhole)
  (arg9 : Memref sig .tc .vmem S1x1x1 .f32) (harg9 : arg9.IsWhole) (arg10 : Memref sig .tc .vmem S1x1 .f32) (harg10 : arg10.IsWhole)
  (x0 x1 : Vec F S1x256x3 .f32) (x2 : Vec F S1x256x4 .f32) (x3 x4 : Vec F S1x3x256 .f32) (x5 : Vec F S1x4x256 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after the body, from its contents `acc` before: `acc` plus the masked tile's sum (the one store's
    payload; the row and column offsets of the mask come from the grid point's second and third coordinates). -/
def accAfter (acc : Vec F S1x1 .f32) : Vec F S1x1 .f32 :=
  k0_pay1 (pen x0 x1 x2 x3 x4 x5) (k0_pay55 (BitVec.ofNat 32 (i 1).val)) (k0_pay56 (BitVec.ofNat 32 (i 2).val)) acc

/-- A middle point of a batch: the accumulator, found at `xs0`, is left at `xs0` plus the tile's sum. -/
theorem sout_B (hc0 : ¬cond0_0 i) (hc1 : ¬cond0_1 i) (xs0 : Vec F S1x1 .f32) :
    sout0_B_0 c i arg3 harg3 arg4 harg4 arg5 harg5 arg6 harg6 arg7 harg7 arg8 harg8 arg9 harg9 arg10 harg10 hc0 hc1 x0 x1 x2 x3 x4 x5 xs0 = accAfter i x0 x1 x2 x3 x4 x5 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz2]
  simp only [View.readAt_eq_ld, harg3.read_unread, harg4.read_unread, harg5.read_unread, harg6.read_unread, harg7.read_unread,
    harg8.read_unread, harg10.read_unread, View.ld_unit_zero (S := S1x1) hz2, View.ld_unit_zero (S := S1x256x3) hz3,
    View.ld_unit_zero (S := S1x256x4) hz3, View.ld_unit_zero (S := S1x3x256) hz3, View.ld_unit_zero (S := S1x4x256) hz3]
  rfl

/-- The first point of a batch: the accumulator is zeroed first, so it is left at zero plus the tile's sum. -/
theorem sout_A (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 x5 = accAfter i x0 x1 x2 x3 x4 x5 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) hz2, View.readCov_unit_zero (S := S1x1) _ hz2]
  simp only [View.readAt_eq_ld, harg3.read_unread, harg4.read_unread, harg5.read_unread, harg6.read_unread, harg7.read_unread,
    harg8.read_unread, View.ld_unit_zero (S := S1x256x3) hz3,
    View.ld_unit_zero (S := S1x256x4) hz3, View.ld_unit_zero (S := S1x3x256) hz3, View.ld_unit_zero (S := S1x4x256) hz3]
  rfl

/-- The last point of a batch: the accumulator is left as at a middle point … -/
theorem sout_C (hc0 : ¬cond0_0 i) (hc1 : cond0_1 i) (xs0 : Vec F S1x1 .f32) :
    sout0_C_0 c i arg3 harg3 arg4 harg4 arg5 harg5 arg6 harg6 arg7 harg7 arg8 harg8 arg9 harg9 arg10 harg10 hc0 hc1 x0 x1 x2 x3 x4 x5 xs0 = accAfter i x0 x1 x2 x3 x4 x5 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz2]
  simp only [View.readAt_eq_ld, harg3.read_unread, harg4.read_unread, harg5.read_unread, harg6.read_unread, harg7.read_unread,
    harg8.read_unread, harg10.read_unread, View.ld_unit_zero (S := S1x1) hz2, View.ld_unit_zero (S := S1x256x3) hz3,
    View.ld_unit_zero (S := S1x256x4) hz3, View.ld_unit_zero (S := S1x3x256) hz3, View.ld_unit_zero (S := S1x4x256) hz3]
  rfl

/-- … and the output block receives that final accumulator, recast from [1, 1] to [1, 1, 1]. -/
theorem out_C (hc0 : ¬cond0_0 i) (hc1 : cond0_1 i) (xs0 : Vec F S1x1 .f32) :
    out0_C_6 c i arg3 harg3 arg4 harg4 arg5 harg5 arg6 harg6 arg7 harg7 arg8 harg8 arg9 harg9 arg10 harg10 hc0 hc1 x0 x1 x2 x3 x4 x5 xs0 = k0_pay2 (accAfter i x0 x1 x2 x3 x4 x5 xs0) := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz3, View.readCov_unit_zero (S := S1x1) _ hz2]
  simp only [View.readAt_eq_ld, harg3.read_unread, harg4.read_unread, harg5.read_unread, harg6.read_unread, harg7.read_unread,
    harg8.read_unread, harg10.read_unread, View.ld_unit_zero (S := S1x1) hz2, View.ld_unit_zero (S := S1x256x3) hz3,
    View.ld_unit_zero (S := S1x256x4) hz3, View.ld_unit_zero (S := S1x3x256) hz3, View.ld_unit_zero (S := S1x4x256) hz3]
  rfl

end Cert.KernelIdeal.Tile

end
-- ==== Proof.Accum.lean ====
/-
  The accumulator along the grid.

  `accAt n` is the accumulator cell after grid position n, by recursion on n: at a batch's first position
  (n a multiple of 256) the body starts from the zero cell, elsewhere from the cell after position n − 1; in both
  cases it adds the position's tile sum. The frame's record of what the cell holds point by point is this
  recursion (by induction on the position, through the three cases of the body), and at a batch's last position the
  output block holds the cell recast to the block's shape.
-/
import proofs.«114842_j77025943486733_1_alg».proof.Proof.Pieces

set_option maxRecDepth 16384

noncomputable section

namespace Cert.KernelIdeal.Tile

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The accumulator cell after grid position `n`. -/
def accAt (c : Dev nD) : (n : ℕ) → n < cfg0.N → Vec F S1x1 .f32
  | 0, h => accAfter (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay3 (F := F))
  | n + 1, h => accAfter (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)
      (if (n + 1) % 256 = 0 then k0_pay3 (F := F) else accAt c n (Nat.lt_of_succ_lt h))

/-- What the frame records for the cell after position `n` is `accAt n`. -/
theorem outs2_eq (c : Dev nD) : ∀ (n : ℕ) (h : n < cfg0.N), (outsAt0 m c n h).2 = accAt m c n h
  | 0, h => by
    refine (congrArg Prod.snd (outsAt0_A m c ⟨0, h⟩ (Nat.zero_mod _) (by show ¬(0 % 256 = 255); decide))).trans ?_
    dsimp only
    refine (sout_A ..).trans ?_
    rw [accAt]
  | n + 1, h => by
    have hN : n + 1 < 512 := lt_of_lt_of_eq h N_0
    by_cases h0 : (n + 1) % 256 = 0
    · have h1 : ¬(n + 1) % 256 = 255 := by omega
      refine (congrArg Prod.snd (outsAt0_A m c ⟨n + 1, h⟩ h0 h1)).trans ?_
      dsimp only
      refine (sout_A ..).trans ?_
      rw [accAt, if_pos h0]
    · by_cases h1 : (n + 1) % 256 = 255
      · refine (congrArg Prod.snd (outsAt0_C m c ⟨n + 1, h⟩ h0 h1)).trans ?_
        dsimp only
        refine (sout_C ..).trans ?_
        rw [accAt, if_neg h0]
        exact congrArg _ (outs2_eq c n _)
      · refine (congrArg Prod.snd (outsAt0_B m c ⟨n + 1, h⟩ h0 h1)).trans ?_
        dsimp only
        refine (sout_B ..).trans ?_
        rw [accAt, if_neg h0]
        exact congrArg _ (outs2_eq c n _)

/-- At a batch's last position the output block is left holding the cell, recast. -/
theorem outs1_eq (c : Dev nD) (t : Fin cfg0.N) (h1 : t.val % 256 = 255) :
    (outsAt0 m c t.val t.isLt).1 = k0_pay2 (accAt m c t.val t.isLt) := by
  have h0 : ¬t.val % 256 = 0 := by omega
  obtain ⟨n, hn⟩ := t
  cases n with
  | zero => exact absurd h1 (by show ¬(0 % 256 = 255); decide)
  | succ n =>
    refine (congrArg Prod.fst (outsAt0_C m c ⟨n + 1, hn⟩ h0 h1)).trans ?_
    dsimp only
    refine (out_C ..).trans ?_
    rw [accAt, if_neg h0]
    exact congrArg (fun a => k0_pay2 (accAfter _ _ _ _ _ _ _ a)) (outs2_eq m c n _)

end Cert.KernelIdeal.Tile

end
-- ==== Proof.Spec.lean ====
/-
  The mathematics of the collision regulariser, stated once, over the extended reals.

  Three arrays: positions `X` and scales `Sc` of shape [2, 4096, 3] and unit-free quaternions `Q` of shape
  [2, 4096, 4]. For a batch `b` and an ordered pair of points `(n, m)`:
    * the difference vector `dX` (point `n` minus point `m`), its regularised length `dist` = √(|dX|² + ε), and the
      direction `dir` = dX / dist;
    * the rotation matrix `R` of a point's quaternion (the usual nine quadratic forms);
    * `slen n m k l`: the squared length of the direction from `n` to `m`, taken through the rotation of point `k`
      (row vector times matrix) and scaled, coordinate by coordinate, by the scales of point `l`;
    * the overlap (radius along the direction in the frame of `n` scaled by `m`, plus the radius in the frame of `m`
      scaled by `n`, minus the distance, clipped at zero) and its penalty o² / (1 + o/10), zero on the diagonal.
  The result is the mean of the penalty over all 2 · 4096 · 4096 ordered pairs.

  Two spellings of the same quantity are given. `kerPair` / `kerTotal` group every sum of three terms to the left
  and sum the pairs tile by tile (256 × 256 tiles, 16 × 16 of them per batch). `refPair` / `refTotal` write the sums
  of three as sums over `Fin 3`, form the second radius by exchanging the two points (so its direction is the
  opposite one), guard the square root the way a safe norm does, and sum all pairs at once. That the two agree
  on finite inputs is proved elsewhere; this module only states them. It names no program.
-/
import Idealize.ShloMosaic.PureOps.Ideal
import Idealize.ShloMosaic.PureOps.Ideal.Laws
import Idealize.ShloMosaic.Lib.ValueIdx

noncomputable section

open scoped BigOperators

namespace Cert.Collision

open Idealize.ShloMosaic Idealize.ShloMosaic.ValueIdx

/-- An array of shape [2, 4096, 3] of extended reals (positions, scales). -/
abbrev Arr3 : Type := (⟨3, ![2, 4096, 3]⟩ : Shape).Idx → EReal
/-- An array of shape [2, 4096, 4] of extended reals (quaternions, scalar part first). -/
abbrev Arr4 : Type := (⟨3, ![2, 4096, 4]⟩ : Shape).Idx → EReal

/-- The regulariser ε under the square root of the squared distance (the single-precision word nearest 1e-8). -/
abbrev cEps : EReal := Ideal.ofBits .f32 0x322BCC77#32
/-- 2. -/
abbrev cTwo : EReal := Ideal.ofBits .f32 0x40000000#32
/-- 1. -/
abbrev cOne : EReal := Ideal.ofBits .f32 0x3F800000#32
/-- The single-precision word nearest 1/10. -/
abbrev cTenth : EReal := Ideal.ofBits .f32 0x3DCCCCCD#32
/-- The number of ordered pairs, 2 · 4096 · 4096 = 2^25. -/
abbrev cCount : EReal := Ideal.ofBits .f32 0x4C000000#32

/-- a² + b² + c², added left to right. -/
def sq3 (a b c : EReal) : EReal := a * a + b * b + c * c

/-- u · r for two triples, added left to right. -/
def dot3 (u0 u1 u2 r0 r1 r2 : EReal) : EReal := u0 * r0 + u1 * r1 + u2 * r2

/-- The rotation matrix of the quaternion (w, x, y, z), each product 2·a·b read as (2·a)·b. -/
def rot (w x y z : EReal) : Fin 3 → Fin 3 → EReal
  | 0, 0 => cOne - cTwo * y * y - cTwo * z * z
  | 0, 1 => cTwo * x * y - cTwo * z * w
  | 0, 2 => cTwo * x * z + cTwo * y * w
  | 1, 0 => cTwo * x * y + cTwo * z * w
  | 1, 1 => cOne - cTwo * x * x - cTwo * z * z
  | 1, 2 => cTwo * y * z - cTwo * x * w
  | 2, 0 => cTwo * x * z - cTwo * y * w
  | 2, 1 => cTwo * y * z + cTwo * x * w
  | 2, 2 => cOne - cTwo * x * x - cTwo * y * y

/-- The same matrix with the diagonal's squares formed first: 2·a² read as 2·(a·a). -/
def rotSq (w x y z : EReal) : Fin 3 → Fin 3 → EReal
  | 0, 0 => cOne - cTwo * (y * y) - cTwo * (z * z)
  | 0, 1 => cTwo * x * y - cTwo * z * w
  | 0, 2 => cTwo * x * z + cTwo * y * w
  | 1, 0 => cTwo * x * y + cTwo * z * w
  | 1, 1 => cOne - cTwo * (x * x) - cTwo * (z * z)
  | 1, 2 => cTwo * y * z - cTwo * x * w
  | 2, 0 => cTwo * x * z - cTwo * y * w
  | 2, 1 => cTwo * y * z + cTwo * x * w
  | 2, 2 => cOne - cTwo * (x * x) - cTwo * (y * y)

/-- The penalty of an overlap: o² / (1 + o/10). -/
def penalty (o : EReal) : EReal := Ideal.div (o * o) (cOne + cTenth * o)

section Pair

variable (X Sc : Arr3) (Q : Arr4) (b : Fin 2)

/-- Coordinate `i` of point `n` minus point `m`. -/
def dX (n m : Fin 4096) (i : Fin 3) : EReal := X (ix3 b n i) - X (ix3 b m i)

/-- The rotation matrix of point `k`. -/
def R (k : Fin 4096) : Fin 3 → Fin 3 → EReal :=
  rot (Q (ix3 b k (0 : Fin 4))) (Q (ix3 b k (1 : Fin 4))) (Q (ix3 b k (2 : Fin 4))) (Q (ix3 b k (3 : Fin 4)))

/-- The same with the diagonal's squares formed first. -/
def RSq (k : Fin 4096) : Fin 3 → Fin 3 → EReal :=
  rotSq (Q (ix3 b k (0 : Fin 4))) (Q (ix3 b k (1 : Fin 4))) (Q (ix3 b k (2 : Fin 4))) (Q (ix3 b k (3 : Fin 4)))

/-! ### Sums of three grouped to the left -/

/-- √(|dX|² + ε). -/
def dist (n m : Fin 4096) : EReal :=
  Ideal.sqrt (sq3 (dX X b n m 0) (dX X b n m 1) (dX X b n m 2) + cEps)

/-- dX / dist. -/
def dir (n m : Fin 4096) (i : Fin 3) : EReal := Ideal.div (dX X b n m i) (dist X b n m)

/-- Coordinate `j` of the direction from `n` to `m` taken through the rotation of point `k`. -/
def proj (n m k : Fin 4096) (j : Fin 3) : EReal :=
  dot3 (dir X b n m 0) (dir X b n m 1) (dir X b n m 2) (R Q b k 0 j) (R Q b k 1 j) (R Q b k 2 j)

/-- The squared length of that vector scaled by the scales of point `l`. -/
def slen (n m k l : Fin 4096) : EReal :=
  sq3 (proj X Q b n m k 0 * Sc (ix3 b l (0 : Fin 3))) (proj X Q b n m k 1 * Sc (ix3 b l (1 : Fin 3)))
    (proj X Q b n m k 2 * Sc (ix3 b l (2 : Fin 3)))

/-- The penalty of the ordered pair (n, m): both radii along the ONE direction from `n` to `m`; zero on the diagonal. -/
def kerPair (n m : Fin 4096) : EReal :=
  if n = m then 0
  else penalty (max (Ideal.sqrt (slen X Sc Q b n m n m) + Ideal.sqrt (slen X Sc Q b n m m n) - dist X b n m) 0)

/-! ### Sums of three as sums over `Fin 3`, the second radius by exchanging the points -/

/-- √(Σᵢ dXᵢ² + ε). -/
def distSum (n m : Fin 4096) : EReal :=
  Ideal.sqrt ((∑ i : Fin 3, dX X b n m i * dX X b n m i) + cEps)

/-- dX / distSum. -/
def dirSum (n m : Fin 4096) (i : Fin 3) : EReal := Ideal.div (dX X b n m i) (distSum X b n m)

/-- The squared length of the direction from `n` to `m` through the rotation of `n`, scaled by the scales of `m`. -/
def slenSum (n m : Fin 4096) : EReal :=
  ∑ j : Fin 3, ((∑ i : Fin 3, dirSum X b n m i * RSq Q b n i j) * Sc (ix3 b m j))
    * ((∑ i : Fin 3, dirSum X b n m i * RSq Q b n i j) * Sc (ix3 b m j))

/-- The guarded square root of a safe norm: √s where s is positive, 0 elsewhere. -/
def safeSqrt (s : EReal) : EReal := if 0 < s then Ideal.sqrt (if 0 < s then s else cOne) else 0

/-- The penalty of the ordered pair (n, m): the second radius is the first one's formula at the exchanged pair. -/
def refPair (n m : Fin 4096) : EReal :=
  if n = m then 0
  else penalty (max (safeSqrt (slenSum X Sc Q b n m) + safeSqrt (slenSum X Sc Q b m n) - distSum X b n m) 0)

end Pair

/-! ### The two totals -/

/-- Row `r` of the tile row of position `t` (tiles are numbered 16 to a row, 256 to a batch). -/
def tileRow (t r : Fin 256) : Fin 4096 := ⟨t.val / 16 * 256 + r.val, by omega⟩
/-- Column `c` of the tile column of position `t`. -/
def tileCol (t c : Fin 256) : Fin 4096 := ⟨t.val % 16 * 256 + c.val, by omega⟩

/-- The mean penalty, the pairs summed batch by batch, tile by tile, row by row. -/
def kerTotal (X Sc : Arr3) (Q : Arr4) : EReal :=
  Ideal.div (∑ b : Fin 2, ∑ t : Fin 256, ∑ r : Fin 256, ∑ c : Fin 256,
    kerPair X Sc Q b (tileRow t r) (tileCol t c)) cCount

/-- The mean penalty, all pairs summed at once. -/
def refTotal (X Sc : Arr3) (Q : Arr4) : EReal :=
  Ideal.div (∑ j : (⟨3, ![2, 4096, 4096]⟩ : Shape).Idx, refPair X Sc Q (j 0) (j 1) (j 2)) cCount

/-- Every entry is a real number. -/
def Finite {ι : Type} (A : ι → EReal) : Prop := ∀ i, ∃ r : ℝ, A i = (r : EReal)

end Cert.Collision

end
-- ==== Proof.Blocks.lean ====
/-
  The six blocks a grid point loads, as entries of the three argument arrays.

  The grid has 2 · 16 · 16 points; position t (0 ≤ t < 512) is batch t / 256, tile row (t / 16) mod 16 and tile
  column t mod 16. Windows 0, 1, 2 stage, at position t, rows 256·(tile row) … of positions, scales and
  quaternions of the batch: entry (0, r, k) of the block is entry (batch, 256·(tile row) + r, k) of the array.
  Windows 3, 4, 5 stage columns 256·(tile column) … of the TRANSPOSED arrays, which the host program forms
  before the call by exchanging the last two axes: entry (0, k, c) of the block is entry
  (batch, 256·(tile column) + c, k) of the original array. Row and column numbers are written with the
  specification's `tileRow` / `tileCol` at the position inside the batch, t mod 256.
-/
import proofs.«114842_j77025943486733_1_alg».proof.Proof.Gen.KernelIdeal.Frame
import proofs.«114842_j77025943486733_1_alg».proof.Proof.Spec
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Tile

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.Collision

variable {F : FTy → Type} [FloatOps F]
variable (m : (ℓ : Loc nD τ sig) → Buf (Elt F) ℓ)

theorem lt512 (t : Fin cfg0.N) : t.val < 512 := lt_of_lt_of_eq t.isLt N_0

/-- The batch of a grid position. -/
def bOf (t : Fin cfg0.N) : Fin 2 := ⟨t.val / 256, by have := lt512 t; omega⟩
/-- The position inside its batch. -/
def pos (t : Fin cfg0.N) : Fin 256 := ⟨t.val % 256, by omega⟩

/-- The grid's coordinates at a position. -/
theorem coords_eq : ∀ t : Fin cfg0.N, (grid0.coords t 0).val = t.val / 256 ∧ (grid0.coords t 1).val = t.val / 16 % 16
    ∧ (grid0.coords t 2).val = t.val % 16 := (by decide +kernel : ∀ t : Fin grid0.N, _)

/-- The block indices of the row windows: (batch, tile row, 0). -/
theorem idx0 : ∀ t : Fin cfg0.N, win0_0.index t (0 : Fin 3) = t.val / 256 ∧ win0_0.index t (1 : Fin 3) = t.val / 16 % 16
    ∧ win0_0.index t (2 : Fin 3) = 0 := (by decide +kernel : ∀ t : Fin grid0.N, _)
theorem idx1 : ∀ t : Fin cfg0.N, win0_1.index t (0 : Fin 3) = t.val / 256 ∧ win0_1.index t (1 : Fin 3) = t.val / 16 % 16
    ∧ win0_1.index t (2 : Fin 3) = 0 := (by decide +kernel : ∀ t : Fin grid0.N, _)
theorem idx2 : ∀ t : Fin cfg0.N, win0_2.index t (0 : Fin 3) = t.val / 256 ∧ win0_2.index t (1 : Fin 3) = t.val / 16 % 16
    ∧ win0_2.index t (2 : Fin 3) = 0 := (by decide +kernel : ∀ t : Fin grid0.N, _)
/-- The block indices of the column windows: (batch, 0, tile column). -/
theorem idx3 : ∀ t : Fin cfg0.N, win0_3.index t (0 : Fin 3) = t.val / 256 ∧ win0_3.index t (1 : Fin 3) = 0
    ∧ win0_3.index t (2 : Fin 3) = t.val % 16 := (by decide +kernel : ∀ t : Fin grid0.N, _)
theorem idx4 : ∀ t : Fin cfg0.N, win0_4.index t (0 : Fin 3) = t.val / 256 ∧ win0_4.index t (1 : Fin 3) = 0
    ∧ win0_4.index t (2 : Fin 3) = t.val % 16 := (by decide +kernel : ∀ t : Fin grid0.N, _)
theorem idx5 : ∀ t : Fin cfg0.N, win0_5.index t (0 : Fin 3) = t.val / 256 ∧ win0_5.index t (1 : Fin 3) = 0
    ∧ win0_5.index t (2 : Fin 3) = t.val % 16 := (by decide +kernel : ∀ t : Fin grid0.N, _)

/-- Positions: entry (0, r, k) of the row block is entry (batch, row r of the tile row, k) of the array. -/
theorem iblk0_apply (c : Dev nD) (t : Fin cfg0.N) (r : Fin 256) (k : Fin 3) :
    (iblk m c 0 t : Vec F S1x256x3 .f32) (ix3 (0 : Fin 1) r k)
      = m ((c : Thread nD τ).loc main_arg0) (ix3 (bOf t) (tileRow (pos t) r) k) := by
  have hi := idx0 t
  have hN := lt512 t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val / 256; rw [hi.1]; omega
  | ⟨1, _⟩ => show win0_0.index t (1 : Fin 3) * 256 + 1 * r.val = t.val % 256 / 16 * 256 + r.val; rw [hi.2.1]; omega
  | ⟨2, _⟩ => show win0_0.index t (2 : Fin 3) * 3 + 1 * k.val = k.val; rw [hi.2.2]; omega

/-- Scales of the row points, likewise. -/
theorem iblk1_apply (c : Dev nD) (t : Fin cfg0.N) (r : Fin 256) (k : Fin 3) :
    (iblk m c 1 t : Vec F S1x256x3 .f32) (ix3 (0 : Fin 1) r k)
      = m ((c : Thread nD τ).loc main_arg1) (ix3 (bOf t) (tileRow (pos t) r) k) := by
  have hi := idx1 t
  have hN := lt512 t
  unfold iblk
  rw [View.read_apply]
  show V m c main_arg1 _ = _
  rw [V_main_arg1]
  congr 1
  funext a
  apply Fin.ext
  match a with
  | ⟨0, _⟩ => show win0_1.index t (0 : Fin 3) * 1 + 1 * 0 = t.val / 256; rw [hi.1]; omega
  | ⟨1, _⟩ => show win0_1.index t (1 : Fin 3) * 256 + 1 * r.val = t.val % 256 / 16 * 256 + r.val; rw [hi.2.1]; omega
  | ⟨2, _⟩ => show win0_1.index t (2 : Fin 3) * 3 + 1 * k.val = k.val; rw [hi.2.2]; omega

/-- Quaternions of the row points, likewise. -/
theorem iblk2_apply (c : Dev nD) (t : Fin cfg0.N) (r : Fin 256) (k : Fin 4) :
    (iblk m c 2 t : Vec F S1x256x4 .f32) (ix3 (0 : Fin 1) r k)
      = m ((c : Thread nD τ).loc main_arg2) (ix3 (bOf t) (tileRow (pos t) r) k) := by
  have hi := idx2 t
  have hN := lt512 t
  unfold iblk
  rw [View.read_apply]
  show V m c main_arg2 _ = _
  rw [V_main_arg2]
  congr 1
  funext a
  apply Fin.ext
  match a with
  | ⟨0, _⟩ => show win0_2.index t (0 : Fin 3) * 1 + 1 * 0 = t.val / 256; rw [hi.1]; omega
  | ⟨1, _⟩ => show win0_2.index t (1 : Fin 3) * 256 + 1 * r.val = t.val % 256 / 16 * 256 + r.val; rw [hi.2.1]; omega
  | ⟨2, _⟩ => show win0_2.index t (2 : Fin 3) * 4 + 1 * k.val = k.val; rw [hi.2.2]; omega

/-- The array window 3 stages: the host's exchange of the last two axes of the argument. -/
theorem V_main_v0 (c : Dev nD) : (V m c main_v0 : S2x3x4096.Idx → Elt F .f32)
    = transpose S2x3x4096 [0, 2, 1] (m ((c : Thread nD τ).loc main_arg0)) transposes_S2x4096x3_S2x3x4096_0_2_1 := by
  show StableHlo.after hostOps0 (fun b => m (c, b)) (Proc.devRef .tc main_v0) = _
  after_results

/-- Positions of the column points: entry (0, k, c) of the block is entry (batch, column c of the tile column, k) of the array. -/
theorem iblk3_apply (c : Dev nD) (t : Fin cfg0.N) (k : Fin 3) (cc : Fin 256) :
    (iblk m c 3 t : Vec F S1x3x256 .f32) (ix3 (0 : Fin 1) k cc)
      = m ((c : Thread nD τ).loc main_arg0) (ix3 (bOf t) (tileCol (pos t) cc) k) := by
  have hi := idx3 t
  have hN := lt512 t
  unfold iblk
  rw [View.read_apply]
  show V m c main_v0 _ = _
  rw [V_main_v0]
  have e : ((cfg0.win 3).blk t).view.emb (ix3 (0 : Fin 1) k cc) = ix3 (bOf t) k (tileCol (pos t) cc) := by
    funext a
    apply Fin.ext
    match a with
    | ⟨0, _⟩ => show win0_3.index t (0 : Fin 3) * 1 + 1 * 0 = t.val / 256; rw [hi.1]; omega
    | ⟨1, _⟩ => show win0_3.index t (1 : Fin 3) * 3 + 1 * k.val = k.val; rw [hi.2.1]; omega
    | ⟨2, _⟩ => show win0_3.index t (2 : Fin 3) * 256 + 1 * cc.val = t.val % 256 % 16 * 256 + cc.val; rw [hi.2.2]; omega
  rw [e]
  exact transpose_ix3_021_apply _ _ (bOf t) k (tileCol (pos t) cc)

/-- The array window 4 stages: the host's exchange of the last two axes of the argument. -/
theorem V_main_v1 (c : Dev nD) : (V m c main_v1 : S2x3x4096.Idx → Elt F .f32)
    = transpose S2x3x4096 [0, 2, 1] (m ((c : Thread nD τ).loc main_arg1)) transposes_S2x4096x3_S2x3x4096_0_2_1 := by
  show StableHlo.after hostOps0 (fun b => m (c, b)) (Proc.devRef .tc main_v1) = _
  after_results

/-- Scales of the column points, likewise. -/
theorem iblk4_apply (c : Dev nD) (t : Fin cfg0.N) (k : Fin 3) (cc : Fin 256) :
    (iblk m c 4 t : Vec F S1x3x256 .f32) (ix3 (0 : Fin 1) k cc)
      = m ((c : Thread nD τ).loc main_arg1) (ix3 (bOf t) (tileCol (pos t) cc) k) := by
  have hi := idx4 t
  have hN := lt512 t
  unfold iblk
  rw [View.read_apply]
  show V m c main_v1 _ = _
  rw [V_main_v1]
  have e : ((cfg0.win 4).blk t).view.emb (ix3 (0 : Fin 1) k cc) = ix3 (bOf t) k (tileCol (pos t) cc) := by
    funext a
    apply Fin.ext
    match a with
    | ⟨0, _⟩ => show win0_4.index t (0 : Fin 3) * 1 + 1 * 0 = t.val / 256; rw [hi.1]; omega
    | ⟨1, _⟩ => show win0_4.index t (1 : Fin 3) * 3 + 1 * k.val = k.val; rw [hi.2.1]; omega
    | ⟨2, _⟩ => show win0_4.index t (2 : Fin 3) * 256 + 1 * cc.val = t.val % 256 % 16 * 256 + cc.val; rw [hi.2.2]; omega
  rw [e]
  exact transpose_ix3_021_apply _ _ (bOf t) k (tileCol (pos t) cc)

/-- The array window 5 stages: the host's exchange of the last two axes of the argument. -/
theorem V_main_v2 (c : Dev nD) : (V m c main_v2 : S2x4x4096.Idx → Elt F .f32)
    = transpose S2x4x4096 [0, 2, 1] (m ((c : Thread nD τ).loc main_arg2)) transposes_S2x4096x4_S2x4x4096_0_2_1 := by
  show StableHlo.after hostOps0 (fun b => m (c, b)) (Proc.devRef .tc main_v2) = _
  after_results

/-- Quaternions of the column points, likewise. -/
theorem iblk5_apply (c : Dev nD) (t : Fin cfg0.N) (k : Fin 4) (cc : Fin 256) :
    (iblk m c 5 t : Vec F S1x4x256 .f32) (ix3 (0 : Fin 1) k cc)
      = m ((c : Thread nD τ).loc main_arg2) (ix3 (bOf t) (tileCol (pos t) cc) k) := by
  have hi := idx5 t
  have hN := lt512 t
  unfold iblk
  rw [View.read_apply]
  show V m c main_v2 _ = _
  rw [V_main_v2]
  have e : ((cfg0.win 5).blk t).view.emb (ix3 (0 : Fin 1) k cc) = ix3 (bOf t) k (tileCol (pos t) cc) := by
    funext a
    apply Fin.ext
    match a with
    | ⟨0, _⟩ => show win0_5.index t (0 : Fin 3) * 1 + 1 * 0 = t.val / 256; rw [hi.1]; omega
    | ⟨1, _⟩ => show win0_5.index t (1 : Fin 3) * 4 + 1 * k.val = k.val; rw [hi.2.1]; omega
    | ⟨2, _⟩ => show win0_5.index t (2 : Fin 3) * 256 + 1 * cc.val = t.val % 256 % 16 * 256 + cc.val; rw [hi.2.2]; omega
  rw [e]
  exact transpose_ix3_021_apply _ _ (bOf t) k (tileCol (pos t) cc)

end Cert.KernelIdeal.Tile

end
-- ==== Proof.SpecPoint.lean ====
/-
  The penalty of an ordered pair of points from the two points' raw coordinates.

  `pairOf xn sn qn xm sm qm` is the penalty before the diagonal is masked, for a first point with position `xn`,
  scales `sn` and quaternion `qn` and a second point `xm sm qm`: the one direction (first minus second, over the
  regularised distance) is taken through each point's rotation and scaled by the OTHER point's scales; the two
  lengths minus the distance, clipped at zero, is the overlap. `kerPair` of the specification is this function of
  the rows of the three arrays, off the diagonal.
-/
import proofs.«114842_j77025943486733_1_alg».proof.Proof.Spec

noncomputable section

namespace Cert.Collision

open Idealize.ShloMosaic Idealize.ShloMosaic.ValueIdx

/-- The unmasked penalty of the ordered pair (first point, second point). -/
def pairOf (xn sn : Fin 3 → EReal) (qn : Fin 4 → EReal) (xm sm : Fin 3 → EReal) (qm : Fin 4 → EReal) : EReal :=
  let d : Fin 3 → EReal := fun i => xn i - xm i
  let dst : EReal := Ideal.sqrt (sq3 (d 0) (d 1) (d 2) + cEps)
  let u : Fin 3 → EReal := fun i => Ideal.div (d i) dst
  let pn : Fin 3 → EReal := fun j =>
    dot3 (u 0) (u 1) (u 2) (rot (qn 0) (qn 1) (qn 2) (qn 3) 0 j) (rot (qn 0) (qn 1) (qn 2) (qn 3) 1 j)
      (rot (qn 0) (qn 1) (qn 2) (qn 3) 2 j)
  let pm : Fin 3 → EReal := fun j =>
    dot3 (u 0) (u 1) (u 2) (rot (qm 0) (qm 1) (qm 2) (qm 3) 0 j) (rot (qm 0) (qm 1) (qm 2) (qm 3) 1 j)
      (rot (qm 0) (qm 1) (qm 2) (qm 3) 2 j)
  penalty (max (Ideal.sqrt (sq3 (pn 0 * sm 0) (pn 1 * sm 1) (pn 2 * sm 2))
    + Ideal.sqrt (sq3 (pm 0 * sn 0) (pm 1 * sn 1) (pm 2 * sn 2)) - dst) 0)

/-- The specification's pair term is `pairOf` of the two points' rows, zero on the diagonal. -/
theorem kerPair_eq_pairOf (X Sc : Arr3) (Q : Arr4) (b : Fin 2) (n m : Fin 4096) :
    kerPair X Sc Q b n m = if n = m then 0 else
      pairOf (fun i => X (ix3 b n i)) (fun i => Sc (ix3 b n i)) (fun k => Q (ix3 b n k))
        (fun i => X (ix3 b m i)) (fun i => Sc (ix3 b m i)) (fun k => Q (ix3 b m k)) := rfl

end Cert.Collision

end
-- ==== Proof.PenLayout.lean ====
/-
  The body's re-indexing operations read at an index.

  Every block arrives with a leading unit axis, which the body drops at once; the row points' blocks are then
  matrices with one point per row, the column points' blocks matrices with one point per column. The body cuts
  single columns (shape [256, 1]) out of the first kind and single rows (shape [1, 256]) out of the second, and
  spreads each over the 256 × 256 tile: a column vector is repeated along the columns, a row vector along the rows.
  This module says what each of these operations reads at an index given by coordinates: entry (r, c) of a spread
  column vector is the vector's entry r, entry (r, c) of a spread row vector is its entry c, the one entry of row r
  of the cut column `o` is the matrix entry (r, o), and dropping the unit axis changes nothing but the spelling.
-/
import proofs.«114842_j77025943486733_1_alg».proof.Proof.Gen.KernelIdeal.Skeleton
import Idealize.ShloMosaic.Lib.ValueIdx
import Idealize.ShloMosaic.Lib.ValueLayout

noncomputable section

namespace Cert.KernelIdeal.Tile

open Idealize.ShloMosaic Idealize.ShloMosaic.ValueIdx Cert.KernelIdeal Cert.KernelIdeal.Gen

/-! ## Generic shapes -/

section Generic

variable {α : Type}

/-- A column vector `[a, 1]` spread to `[a, b]` reads, at `(p, c)`, the vector's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[a, k]` matrix, cut out as an `[a, 1]` matrix, reads in row `p` the matrix at `(p, o)`. -/
theorem col_apply {a k : ℕ} (o : ℕ) (X : (⟨2, ![a, k]⟩ : Shape).Idx → α)
    (h : (⟨2, ![a, k]⟩ : Shape).Slices ![0, o] ⟨2, ![a, 1]⟩) (p : Fin a) (e : Fin k) (he : e.val = o) :
    extractStridedSlice ⟨2, ![a, 1]⟩ ![0, o] X h (ix2 p (0 : Fin 1)) = X (ix2 p e) :=
  slice2_axis1_apply o X h p (0 : Fin 1) e he

/-- Row `o` of a `[k, b]` matrix, cut out as a `[1, b]` matrix, reads in column `c` the matrix at `(o, c)`. -/
theorem row_apply {k b : ℕ} (o : ℕ) (X : (⟨2, ![k, b]⟩ : Shape).Idx → α)
    (h : (⟨2, ![k, b]⟩ : Shape).Slices ![o, 0] ⟨2, ![1, b]⟩) (e : Fin k) (c : Fin b) (he : e.val = o) :
    extractStridedSlice ⟨2, ![1, b]⟩ ![o, 0] X h (ix2 (0 : Fin 1) c) = X (ix2 e c) :=
  slice2_axis0_apply o X h (0 : Fin 1) c e he

end Generic

/-! ## The body's own layout payloads -/

section Payloads

variable {F : FTy → Type} [FloatOps F]

/-- The row points' blocks with the unit axis dropped: entry `(r, i)` is the block's `(0, r, i)`. -/
theorem pay4_apply (x : Vec F S1x256x3 .f32) (r : Fin 256) (i : Fin 3) :
    k0_pay4 x (ix2 r i) = x (ix3 (0 : Fin 1) r i) := shapeCast_1ab_ab_apply x _ r i
theorem pay5_apply (x : Vec F S1x256x3 .f32) (r : Fin 256) (i : Fin 3) :
    k0_pay5 x (ix2 r i) = x (ix3 (0 : Fin 1) r i) := shapeCast_1ab_ab_apply x _ r i
theorem pay6_apply (x : Vec F S1x256x4 .f32) (r : Fin 256) (k : Fin 4) :
    k0_pay6 x (ix2 r k) = x (ix3 (0 : Fin 1) r k) := shapeCast_1ab_ab_apply x _ r k
/-- The column points' blocks with the unit axis dropped: entry `(i, c)` is the block's `(0, i, c)`. -/
theorem pay7_apply (x : Vec F S1x3x256 .f32) (i : Fin 3) (c : Fin 256) :
    k0_pay7 x (ix2 i c) = x (ix3 (0 : Fin 1) i c) := shapeCast_1ab_ab_apply x _ i c
theorem pay8_apply (x : Vec F S1x3x256 .f32) (i : Fin 3) (c : Fin 256) :
    k0_pay8 x (ix2 i c) = x (ix3 (0 : Fin 1) i c) := shapeCast_1ab_ab_apply x _ i c
theorem pay9_apply (x : Vec F S1x4x256 .f32) (k : Fin 4) (c : Fin 256) :
    k0_pay9 x (ix2 k c) = x (ix3 (0 : Fin 1) k c) := shapeCast_1ab_ab_apply x _ k c

/-- The four columns of the row points' quaternion matrix. -/
theorem pay18_apply (v : FVec F S256x4 .f32) (r : Fin 256) :
    k0_pay18 v (ix2 r (0 : Fin 1)) = v (ix2 r (0 : Fin 4)) := by
  unfold k0_pay18; exact col_apply 0 v _ r 0 rfl
theorem pay19_apply (v : FVec F S256x4 .f32) (r : Fin 256) :
    k0_pay19 v (ix2 r (0 : Fin 1)) = v (ix2 r (1 : Fin 4)) := by
  unfold k0_pay19; exact col_apply 1 v _ r 1 rfl
theorem pay20_apply (v : FVec F S256x4 .f32) (r : Fin 256) :
    k0_pay20 v (ix2 r (0 : Fin 1)) = v (ix2 r (2 : Fin 4)) := by
  unfold k0_pay20; exact col_apply 2 v _ r 2 rfl
theorem pay21_apply (v : FVec F S256x4 .f32) (r : Fin 256) :
    k0_pay21 v (ix2 r (0 : Fin 1)) = v (ix2 r (3 : Fin 4)) := by
  unfold k0_pay21; exact col_apply 3 v _ r 3 rfl

/-- The four rows of the column points' quaternion matrix. -/
theorem pay22_apply (v : FVec F S4x256 .f32) (c : Fin 256) :
    k0_pay22 v (ix2 (0 : Fin 1) c) = v (ix2 (0 : Fin 4) c) := by
  unfold k0_pay22; exact row_apply 0 v _ 0 c rfl
theorem pay23_apply (v : FVec F S4x256 .f32) (c : Fin 256) :
    k0_pay23 v (ix2 (0 : Fin 1) c) = v (ix2 (1 : Fin 4) c) := by
  unfold k0_pay23; exact row_apply 1 v _ 1 c rfl
theorem pay24_apply (v : FVec F S4x256 .f32) (c : Fin 256) :
    k0_pay24 v (ix2 (0 : Fin 1) c) = v (ix2 (2 : Fin 4) c) := by
  unfold k0_pay24; exact row_apply 2 v _ 2 c rfl
theorem pay25_apply (v : FVec F S4x256 .f32) (c : Fin 256) :
    k0_pay25 v (ix2 (0 : Fin 1) c) = v (ix2 (3 : Fin 4) c) := by
  unfold k0_pay25; exact row_apply 3 v _ 3 c rfl

/-- The three columns of the row points' scale matrix. -/
theorem pay26_apply (v : FVec F S256x3 .f32) (r : Fin 256) :
    k0_pay26 v (ix2 r (0 : Fin 1)) = v (ix2 r (0 : Fin 3)) := by
  unfold k0_pay26; exact col_apply 0 v _ r 0 rfl
theorem pay27_apply (v : FVec F S256x3 .f32) (r : Fin 256) :
    k0_pay27 v (ix2 r (0 : Fin 1)) = v (ix2 r (1 : Fin 3)) := by
  unfold k0_pay27; exact col_apply 1 v _ r 1 rfl
theorem pay28_apply (v : FVec F S256x3 .f32) (r : Fin 256) :
    k0_pay28 v (ix2 r (0 : Fin 1)) = v (ix2 r (2 : Fin 3)) := by
  unfold k0_pay28; exact col_apply 2 v _ r 2 rfl

/-- The three rows of the column points' scale matrix. -/
theorem pay29_apply (v : FVec F S3x256 .f32) (c : Fin 256) :
    k0_pay29 v (ix2 (0 : Fin 1) c) = v (ix2 (0 : Fin 3) c) := by
  unfold k0_pay29; exact row_apply 0 v _ 0 c rfl
theorem pay30_apply (v : FVec F S3x256 .f32) (c : Fin 256) :
    k0_pay30 v (ix2 (0 : Fin 1) c) = v (ix2 (1 : Fin 3) c) := by
  unfold k0_pay30; exact row_apply 1 v _ 1 c rfl
theorem pay31_apply (v : FVec F S3x256 .f32) (c : Fin 256) :
    k0_pay31 v (ix2 (0 : Fin 1) c) = v (ix2 (2 : Fin 3) c) := by
  unfold k0_pay31; exact row_apply 2 v _ 2 c rfl

/-- A column vector of the tile spread over the tile. -/
theorem spreadCol_apply (v : FVec F S256x1 .f32) (h : S256x1.Broadcasts S256x256) (r c : Fin 256) :
    broadcastTo S256x256 v h (ix2 r c) = v (ix2 r (0 : Fin 1)) := broadcastTo_a1_ab_apply v h r c
/-- A row vector of the tile spread over the tile. -/
theorem spreadRow_apply (v : FVec F S1x256 .f32) (h : S1x256.Broadcasts S256x256) (r c : Fin 256) :
    broadcastTo S256x256 v h (ix2 r c) = v (ix2 (0 : Fin 1) c) := broadcastTo_1b_ab_apply v h r c

end Payloads

end Cert.KernelIdeal.Tile

end
-- ==== Proof.PenDir.lean ====
/-
  The direction between a row point and a column point, read at a tile entry.

  Entry (r, c) of the three difference tiles is coordinate i of row point r minus coordinate i of column point c.
  The distance tile is the square root of the sum of their squares (added left to right) plus the regulariser, and
  the three direction tiles are the differences divided by the distance. The difference tiles read the blocks
  through the layout lemmas; the rest is arithmetic entry by entry.
-/
import proofs.«114842_j77025943486733_1_alg».proof.Proof.PenLayout
import proofs.«114842_j77025943486733_1_alg».proof.Proof.Spec
import Idealize.ShloMosaic.PureOps.Ideal.Laws

noncomputable section

namespace Cert.KernelIdeal.Tile

open Idealize.ShloMosaic Idealize.ShloMosaic.ValueIdx Cert.KernelIdeal Cert.KernelIdeal.Gen

open Cert.Collision

/-- A square root of a tile at an entry is the square root of the entry. -/
theorem sqrt_apply {s : Shape} {φ : FTy} (a : FVec Ideal s φ) (i : s.Idx) : sqrt a i = Ideal.sqrt (a i) := rfl

section Diff

variable (x0 : Vec Ideal S1x256x3 .f32) (x3 : Vec Ideal S1x3x256 .f32) (r c : Fin 256)

/-- First coordinate of row point `r` minus column point `c`. -/
theorem pay10_apply : k0_pay10 (F := Ideal) x0 x3 (ix2 r c)
    = x0 (ix3 (0 : Fin 1) r (0 : Fin 3)) - x3 (ix3 (0 : Fin 1) (0 : Fin 3) c) := by
  unfold k0_pay10
  rw [subf_apply, spreadCol_apply, spreadRow_apply, col_apply 0 _ _ r (0 : Fin 3) rfl,
    row_apply 0 _ _ (0 : Fin 3) c rfl, pay4_apply, pay7_apply]

/-- Second coordinate. -/
theorem pay11_apply : k0_pay11 (F := Ideal) x0 x3 (ix2 r c)
    = x0 (ix3 (0 : Fin 1) r (1 : Fin 3)) - x3 (ix3 (0 : Fin 1) (1 : Fin 3) c) := by
  unfold k0_pay11
  rw [subf_apply, spreadCol_apply, spreadRow_apply, col_apply 1 _ _ r (1 : Fin 3) rfl,
    row_apply 1 _ _ (1 : Fin 3) c rfl, pay4_apply, pay7_apply]

/-- Third coordinate. -/
theorem pay12_apply : k0_pay12 (F := Ideal) x0 x3 (ix2 r c)
    = x0 (ix3 (0 : Fin 1) r (2 : Fin 3)) - x3 (ix3 (0 : Fin 1) (2 : Fin 3) c) := by
  unfold k0_pay12
  rw [subf_apply, spreadCol_apply, spreadRow_apply, col_apply 2 _ _ r (2 : Fin 3) rfl,
    row_apply 2 _ _ (2 : Fin 3) c rfl, pay4_apply, pay7_apply]

/-- The first two squares, added. -/
theorem pay13_apply : k0_pay13 (F := Ideal) x0 x3 (ix2 r c)
    = (x0 (ix3 (0 : Fin 1) r (0 : Fin 3)) - x3 (ix3 (0 : Fin 1) (0 : Fin 3) c))
        * (x0 (ix3 (0 : Fin 1) r (0 : Fin 3)) - x3 (ix3 (0 : Fin 1) (0 : Fin 3) c))
      + (x0 (ix3 (0 : Fin 1) r (1 : Fin 3)) - x3 (ix3 (0 : Fin 1) (1 : Fin 3) c))
        * (x0 (ix3 (0 : Fin 1) r (1 : Fin 3)) - x3 (ix3 (0 : Fin 1) (1 : Fin 3) c)) := by
  unfold k0_pay13
  rw [addf_apply, mulf_apply, mulf_apply, pay10_apply, pay11_apply]

end Diff

section Pointwise

variable (v25 v28 v31 v34 : FVec Ideal S256x256 .f32) (j : S256x256.Idx)

/-- The regularised distance: the third square joins the first two, then the regulariser, then the root. -/
theorem pay14_apply : k0_pay14 (F := Ideal) v31 v34 j = Ideal.sqrt (v34 j + v31 j * v31 j + cEps) := rfl

/-- The direction's coordinates: each difference over the distance. -/
theorem pay15_apply : k0_pay15 (F := Ideal) v25 v31 v34 j = Ideal.div (v25 j) (k0_pay14 (F := Ideal) v31 v34 j) := rfl
theorem pay16_apply : k0_pay16 (F := Ideal) v28 v31 v34 j = Ideal.div (v28 j) (k0_pay14 (F := Ideal) v31 v34 j) := rfl
theorem pay17_apply : k0_pay17 (F := Ideal) v31 v34 j = Ideal.div (v31 j) (k0_pay14 (F := Ideal) v31 v34 j) := rfl

end Pointwise

end Cert.KernelIdeal.Tile

end
-- ==== Proof.PenRot.lean ====
/-
  The entries of the two points' rotation matrices, as the body forms them.

  The body builds the nine entries of the rotation matrix of each row point as column vectors (one entry per row
  point) from the four columns of the quaternion matrix, and the nine entries for each column point as row vectors
  from the four rows of the transposed quaternion matrix. Each is one of the quadratic forms
  1 − 2a² − 2b² or 2ab ± 2cd, with every product 2·a·b formed as (2·a)·b. Read at a row point r (at a column
  point c) each is the corresponding entry of the specification's rotation matrix of that point's quaternion.
  One entry of the row points' matrix is left by the body in two pieces, 2xy and 2z, joined later with w.
-/
import proofs.«114842_j77025943486733_1_alg».proof.Proof.PenLayout
import proofs.«114842_j77025943486733_1_alg».proof.Proof.Spec
import Idealize.ShloMosaic.PureOps.Ideal.Laws

noncomputable section

namespace Cert.KernelIdeal.Tile

open Idealize.ShloMosaic Idealize.ShloMosaic.ValueIdx Cert.KernelIdeal Cert.KernelIdeal.Gen

open Cert.Collision

section Row

variable (v10 : FVec Ideal S256x4 .f32) (r : Fin 256)

theorem rowRot00 : k0_pay32 (F := Ideal) v10 (ix2 r (0 : Fin 1))
    = rot (v10 (ix2 r (0 : Fin 4))) (v10 (ix2 r (1 : Fin 4))) (v10 (ix2 r (2 : Fin 4))) (v10 (ix2 r (3 : Fin 4))) 0 0 := by
  unfold k0_pay32
  simp only [subf_apply, addf_apply, mulf_apply, broadcast_apply, pay18_apply, pay19_apply, pay20_apply, pay21_apply]
  rfl

theorem rowRot01 : k0_pay33 (F := Ideal) v10 (ix2 r (0 : Fin 1))
    = rot (v10 (ix2 r (0 : Fin 4))) (v10 (ix2 r (1 : Fin 4))) (v10 (ix2 r (2 : Fin 4))) (v10 (ix2 r (3 : Fin 4))) 0 1 := by
  unfold k0_pay33
  simp only [subf_apply, addf_apply, mulf_apply, broadcast_apply, pay18_apply, pay19_apply, pay20_apply, pay21_apply]
  rfl

theorem rowRot02 : k0_pay34 (F := Ideal) v10 (ix2 r (0 : Fin 1))
    = rot (v10 (ix2 r (0 : Fin 4))) (v10 (ix2 r (1 : Fin 4))) (v10 (ix2 r (2 : Fin 4))) (v10 (ix2 r (3 : Fin 4))) 0 2 := by
  unfold k0_pay34
  simp only [subf_apply, addf_apply, mulf_apply, broadcast_apply, pay18_apply, pay19_apply, pay20_apply, pay21_apply]
  rfl

theorem rowRot10 : k0_pay35 (F := Ideal) v10 (ix2 r (0 : Fin 1)) + k0_pay36 (F := Ideal) v10 (ix2 r (0 : Fin 1)) * k0_pay18 (F := Ideal) v10 (ix2 r (0 : Fin 1))
    = rot (v10 (ix2 r (0 : Fin 4))) (v10 (ix2 r (1 : Fin 4))) (v10 (ix2 r (2 : Fin 4))) (v10 (ix2 r (3 : Fin 4))) 1 0 := by
  unfold k0_pay35 k0_pay36
  simp only [subf_apply, addf_apply, mulf_apply, broadcast_apply, pay18_apply, pay19_apply, pay20_apply, pay21_apply]
  rfl

theorem rowRot11 : k0_pay37 (F := Ideal) (k0_pay19 v10) (k0_pay21 v10) (ix2 r (0 : Fin 1))
    = rot (v10 (ix2 r (0 : Fin 4))) (v10 (ix2 r (1 : Fin 4))) (v10 (ix2 r (2 : Fin 4))) (v10 (ix2 r (3 : Fin 4))) 1 1 := by
  unfold k0_pay37
  simp only [subf_apply, addf_apply, mulf_apply, broadcast_apply, pay18_apply, pay19_apply, pay20_apply, pay21_apply]
  rfl

theorem rowRot12 : k0_pay38 (F := Ideal) (k0_pay18 v10) (k0_pay19 v10) (k0_pay20 v10) (k0_pay21 v10) (ix2 r (0 : Fin 1))
    = rot (v10 (ix2 r (0 : Fin 4))) (v10 (ix2 r (1 : Fin 4))) (v10 (ix2 r (2 : Fin 4))) (v10 (ix2 r (3 : Fin 4))) 1 2 := by
  unfold k0_pay38
  simp only [subf_apply, addf_apply, mulf_apply, broadcast_apply, pay18_apply, pay19_apply, pay20_apply, pay21_apply]
  rfl

theorem rowRot21 : k0_pay39 (F := Ideal) (k0_pay18 v10) (k0_pay19 v10) (k0_pay20 v10) (k0_pay21 v10) (ix2 r (0 : Fin 1))
    = rot (v10 (ix2 r (0 : Fin 4))) (v10 (ix2 r (1 : Fin 4))) (v10 (ix2 r (2 : Fin 4))) (v10 (ix2 r (3 : Fin 4))) 2 1 := by
  unfold k0_pay39
  simp only [subf_apply, addf_apply, mulf_apply, broadcast_apply, pay18_apply, pay19_apply, pay20_apply, pay21_apply]
  rfl

theorem rowRot22 : k0_pay40 (F := Ideal) (k0_pay19 v10) (k0_pay20 v10) (ix2 r (0 : Fin 1))
    = rot (v10 (ix2 r (0 : Fin 4))) (v10 (ix2 r (1 : Fin 4))) (v10 (ix2 r (2 : Fin 4))) (v10 (ix2 r (3 : Fin 4))) 2 2 := by
  unfold k0_pay40
  simp only [subf_apply, addf_apply, mulf_apply, broadcast_apply, pay18_apply, pay19_apply, pay20_apply, pay21_apply]
  rfl

end Row

section Col

variable (v16 : FVec Ideal S4x256 .f32) (c : Fin 256)

theorem colRot00 : k0_pay44 (F := Ideal) (k0_pay24 v16) (k0_pay25 v16) (ix2 (0 : Fin 1) c)
    = rot (v16 (ix2 (0 : Fin 4) c)) (v16 (ix2 (1 : Fin 4) c)) (v16 (ix2 (2 : Fin 4) c)) (v16 (ix2 (3 : Fin 4) c)) 0 0 := by
  unfold k0_pay44
  simp only [subf_apply, addf_apply, mulf_apply, broadcast_apply, pay22_apply, pay23_apply, pay24_apply, pay25_apply]
  rfl

theorem colRot01 : k0_pay45 (F := Ideal) (k0_pay22 v16) (k0_pay23 v16) (k0_pay24 v16) (k0_pay25 v16) (ix2 (0 : Fin 1) c)
    = rot (v16 (ix2 (0 : Fin 4) c)) (v16 (ix2 (1 : Fin 4) c)) (v16 (ix2 (2 : Fin 4) c)) (v16 (ix2 (3 : Fin 4) c)) 0 1 := by
  unfold k0_pay45
  simp only [subf_apply, addf_apply, mulf_apply, broadcast_apply, pay22_apply, pay23_apply, pay24_apply, pay25_apply]
  rfl

theorem colRot02 : k0_pay46 (F := Ideal) (k0_pay22 v16) (k0_pay23 v16) (k0_pay24 v16) (k0_pay25 v16) (ix2 (0 : Fin 1) c)
    = rot (v16 (ix2 (0 : Fin 4) c)) (v16 (ix2 (1 : Fin 4) c)) (v16 (ix2 (2 : Fin 4) c)) (v16 (ix2 (3 : Fin 4) c)) 0 2 := by
  unfold k0_pay46
  simp only [subf_apply, addf_apply, mulf_apply, broadcast_apply, pay22_apply, pay23_apply, pay24_apply, pay25_apply]
  rfl

theorem colRot10 : k0_pay47 (F := Ideal) (k0_pay22 v16) (k0_pay23 v16) (k0_pay24 v16) (k0_pay25 v16) (Scalar.ofBits .f32 0x40000000#32) (ix2 (0 : Fin 1) c)
    = rot (v16 (ix2 (0 : Fin 4) c)) (v16 (ix2 (1 : Fin 4) c)) (v16 (ix2 (2 : Fin 4) c)) (v16 (ix2 (3 : Fin 4) c)) 1 0 := by
  unfold k0_pay47
  simp only [subf_apply, addf_apply, mulf_apply, broadcast_apply, pay22_apply, pay23_apply, pay24_apply, pay25_apply]
  rfl

theorem colRot11 : k0_pay48 (F := Ideal) (k0_pay23 v16) (k0_pay25 v16) (ix2 (0 : Fin 1) c)
    = rot (v16 (ix2 (0 : Fin 4) c)) (v16 (ix2 (1 : Fin 4) c)) (v16 (ix2 (2 : Fin 4) c)) (v16 (ix2 (3 : Fin 4) c)) 1 1 := by
  unfold k0_pay48
  simp only [subf_apply, addf_apply, mulf_apply, broadcast_apply, pay22_apply, pay23_apply, pay24_apply, pay25_apply]
  rfl

theorem colRot12 : k0_pay49 (F := Ideal) (k0_pay22 v16) (k0_pay23 v16) (k0_pay24 v16) (k0_pay25 v16) (ix2 (0 : Fin 1) c)
    = rot (v16 (ix2 (0 : Fin 4) c)) (v16 (ix2 (1 : Fin 4) c)) (v16 (ix2 (2 : Fin 4) c)) (v16 (ix2 (3 : Fin 4) c)) 1 2 := by
  unfold k0_pay49
  simp only [subf_apply, addf_apply, mulf_apply, broadcast_apply, pay22_apply, pay23_apply, pay24_apply, pay25_apply]
  rfl

theorem colRot20 : k0_pay50 (F := Ideal) (k0_pay22 v16) (k0_pay23 v16) (k0_pay24 v16) (k0_pay25 v16) (ix2 (0 : Fin 1) c)
    = rot (v16 (ix2 (0 : Fin 4) c)) (v16 (ix2 (1 : Fin 4) c)) (v16 (ix2 (2 : Fin 4) c)) (v16 (ix2 (3 : Fin 4) c)) 2 0 := by
  unfold k0_pay50
  simp only [subf_apply, addf_apply, mulf_apply, broadcast_apply, pay22_apply, pay23_apply, pay24_apply, pay25_apply]
  rfl

theorem colRot21 : k0_pay51 (F := Ideal) (k0_pay22 v16) (k0_pay23 v16) (k0_pay24 v16) (k0_pay25 v16) (ix2 (0 : Fin 1) c)
    = rot (v16 (ix2 (0 : Fin 4) c)) (v16 (ix2 (1 : Fin 4) c)) (v16 (ix2 (2 : Fin 4) c)) (v16 (ix2 (3 : Fin 4) c)) 2 1 := by
  unfold k0_pay51
  simp only [subf_apply, addf_apply, mulf_apply, broadcast_apply, pay22_apply, pay23_apply, pay24_apply, pay25_apply]
  rfl

theorem colRot22 : k0_pay52 (F := Ideal) (k0_pay23 v16) (k0_pay24 v16) (ix2 (0 : Fin 1) c)
    = rot (v16 (ix2 (0 : Fin 4) c)) (v16 (ix2 (1 : Fin 4) c)) (v16 (ix2 (2 : Fin 4) c)) (v16 (ix2 (3 : Fin 4) c)) 2 2 := by
  unfold k0_pay52
  simp only [subf_apply, addf_apply, mulf_apply, broadcast_apply, pay22_apply, pay23_apply, pay24_apply, pay25_apply]
  rfl

end Col

end Cert.KernelIdeal.Tile

end
-- ==== Proof.PenRadius.lean ====
/-
  The two radii, the overlap and the penalty, read at a tile entry.

  With the direction tiles and the rotation entries in hand, the body spreads each rotation entry over the tile,
  forms the three products "direction through the rotation" (each a sum of three products, added left to right),
  scales them by the OTHER point's scales (spread over the tile the other way), and takes the root of the sum of
  the three squares. The sum of the two radii minus the distance, clipped at zero, is the overlap, and the penalty is
  o² / (1 + o/10). This module reads each of these pieces at entry (r, c) in terms of its operands' entries: a column
  vector contributes its entry r, a row vector its entry c, a tile its entry (r, c).
-/
import proofs.«114842_j77025943486733_1_alg».proof.Proof.PenDir
import proofs.«114842_j77025943486733_1_alg».proof.Proof.PenRot

noncomputable section

namespace Cert.KernelIdeal.Tile

open Idealize.ShloMosaic Idealize.ShloMosaic.ValueIdx Cert.KernelIdeal Cert.KernelIdeal.Gen

open Cert.Collision

section Radius

variable (v39 v40 v41 v42 v130 v132 v161 v231 : FVec Ideal S256x256 .f32)
  (v43 v44 v45 v46 v51 v52 v53 v65 v72 v79 v82 v84 v95 v102 v116 v125 : FVec Ideal S256x1 .f32)
  (v54 v55 v56 v170 v177 v184 v191 v200 v207 v214 v221 v230 : FVec Ideal S1x256 .f32) (r c : Fin 256)

/-- The first two terms of the direction through the first column of the row point's rotation; the (1, 0) entry
    is joined here from its two pieces. -/
theorem pay41_apply : k0_pay41 (F := Ideal) v40 v41 v43 v65 v82 v84 (ix2 r c)
    = v40 (ix2 r c) * v65 (ix2 r (0 : Fin 1)) + v41 (ix2 r c) * (v82 (ix2 r (0 : Fin 1)) + v84 (ix2 r (0 : Fin 1)) * v43 (ix2 r (0 : Fin 1))) := by
  unfold k0_pay41
  simp only [addf_apply, mulf_apply, spreadCol_apply]

/-- The third term: the (2, 0) entry of the row point's rotation is formed on the spot. -/
theorem pay42_apply : k0_pay42 (F := Ideal) v42 v43 v44 v45 v46 (ix2 r c)
    = v42 (ix2 r c) * rot (v43 (ix2 r (0 : Fin 1))) (v44 (ix2 r (0 : Fin 1))) (v45 (ix2 r (0 : Fin 1))) (v46 (ix2 r (0 : Fin 1))) 2 0 := by
  unfold k0_pay42
  simp only [subf_apply, mulf_apply, broadcast_apply, spreadCol_apply]
  rfl

/-- The first radius: the direction through the row point's rotation, scaled by the column point's scales. -/
theorem pay43_apply : k0_pay43 (F := Ideal) v40 v41 v42 v54 v55 v56 v72 v79 v95 v102 v116 v125 v130 v132 (ix2 r c)
    = Ideal.sqrt (sq3 ((v130 (ix2 r c) + v132 (ix2 r c)) * v54 (ix2 (0 : Fin 1) c))
        (dot3 (v40 (ix2 r c)) (v41 (ix2 r c)) (v42 (ix2 r c)) (v72 (ix2 r (0 : Fin 1))) (v95 (ix2 r (0 : Fin 1))) (v116 (ix2 r (0 : Fin 1))) * v55 (ix2 (0 : Fin 1) c))
        (dot3 (v40 (ix2 r c)) (v41 (ix2 r c)) (v42 (ix2 r c)) (v79 (ix2 r (0 : Fin 1))) (v102 (ix2 r (0 : Fin 1))) (v125 (ix2 r (0 : Fin 1))) * v56 (ix2 (0 : Fin 1) c))) := by
  unfold k0_pay43
  simp only [sqrt_apply, addf_apply, mulf_apply, spreadCol_apply, spreadRow_apply]
  rfl

/-- The (0, 0) entry of the column point's rotation spread over the tile. -/
theorem pay53_apply : k0_pay53 (F := Ideal) v170 (ix2 r c) = v170 (ix2 (0 : Fin 1) c) := by
  unfold k0_pay53
  exact spreadRow_apply v170 _ r c

/-- The second radius (the direction through the column point's rotation, scaled by the row point's scales), the
    overlap and its penalty. -/
theorem pay54_apply : k0_pay54 (F := Ideal) v39 v40 v41 v42 v51 v52 v53 v161 v177 v184 v191 v200 v207 v214 v221 v230 v231 (ix2 r c)
    = penalty (max (v161 (ix2 r c)
        + Ideal.sqrt (sq3
            (dot3 (v40 (ix2 r c)) (v41 (ix2 r c)) (v42 (ix2 r c)) (v231 (ix2 r c)) (v191 (ix2 (0 : Fin 1) c)) (v214 (ix2 (0 : Fin 1) c)) * v51 (ix2 r (0 : Fin 1)))
            (dot3 (v40 (ix2 r c)) (v41 (ix2 r c)) (v42 (ix2 r c)) (v177 (ix2 (0 : Fin 1) c)) (v200 (ix2 (0 : Fin 1) c)) (v221 (ix2 (0 : Fin 1) c)) * v52 (ix2 r (0 : Fin 1)))
            (dot3 (v40 (ix2 r c)) (v41 (ix2 r c)) (v42 (ix2 r c)) (v184 (ix2 (0 : Fin 1) c)) (v207 (ix2 (0 : Fin 1) c)) (v230 (ix2 (0 : Fin 1) c)) * v53 (ix2 r (0 : Fin 1))))
        - v39 (ix2 r c)) 0) := by
  unfold k0_pay54
  simp only [sqrt_apply, addf_apply, subf_apply, mulf_apply, divf_apply, maximumf_apply, broadcast_apply,
    spreadCol_apply, spreadRow_apply]
  rw [show (Scalar.ofBits .f32 0x00000000#32 : Ideal .f32) = 0 from Ideal.ofBits_zero_f32]
  rfl

end Radius

end Cert.KernelIdeal.Tile

end
-- ==== Proof.PenValue.lean ====
/-
  The tile of penalties read at an entry: the penalty of the pair (row point, column point).

  Entry (r, c) of the tile the body computes from the six blocks is the specification's unmasked pair penalty of
  row point r (its position, scales and quaternion read from the first three blocks at (0, r, ·)) and column point c
  (read from the transposed blocks at (0, ·, c)). The proof walks the body's stages from the last to the first:
  the penalty and second radius, the first radius, the eighteen rotation entries, the direction and distance, and
  finally the blocks themselves; what is left is the specification's formula, spelt the same way.
-/
import proofs.«114842_j77025943486733_1_alg».proof.Proof.TileTerm
import proofs.«114842_j77025943486733_1_alg».proof.Proof.SpecPoint
import proofs.«114842_j77025943486733_1_alg».proof.Proof.PenRadius

noncomputable section

namespace Cert.KernelIdeal.Tile

open Idealize.ShloMosaic Idealize.ShloMosaic.ValueIdx Cert.KernelIdeal Cert.KernelIdeal.Gen

open Cert.Collision

/-- Entry `(r, c)` of the unmasked penalty tile is the pair penalty of row point `r` and column point `c`. -/
theorem pen_apply (x0 x1 : Vec Ideal S1x256x3 .f32) (x2 : Vec Ideal S1x256x4 .f32) (x3 x4 : Vec Ideal S1x3x256 .f32)
    (x5 : Vec Ideal S1x4x256 .f32) (r c : Fin 256) :
    pen (F := Ideal) x0 x1 x2 x3 x4 x5 (ix2 r c)
      = pairOf (fun i => x0 (ix3 (0 : Fin 1) r i)) (fun i => x1 (ix3 (0 : Fin 1) r i)) (fun k => x2 (ix3 (0 : Fin 1) r k))
          (fun i => x3 (ix3 (0 : Fin 1) i c)) (fun i => x4 (ix3 (0 : Fin 1) i c)) (fun k => x5 (ix3 (0 : Fin 1) k c)) := by
  unfold pen
  -- the last stages: penalty, radii, and the pieces of the first radius
  rw [pay54_apply, pay43_apply, pay41_apply, pay42_apply, pay53_apply]
  -- the rotation entries of the row point and of the column point
  rw [rowRot00, rowRot01, rowRot02, rowRot10, rowRot11, rowRot12, rowRot21, rowRot22,
    colRot00, colRot01, colRot02, colRot10, colRot11, colRot12, colRot20, colRot21, colRot22]
  -- the direction and the distance
  rw [pay15_apply, pay16_apply, pay17_apply, pay14_apply, pay10_apply, pay11_apply, pay12_apply, pay13_apply]
  -- the scales and the quaternions, back to the blocks
  rw [pay18_apply, pay19_apply, pay20_apply, pay21_apply, pay26_apply, pay27_apply, pay28_apply,
    pay29_apply, pay30_apply, pay31_apply]
  simp only [pay5_apply, pay6_apply, pay8_apply, pay9_apply]
  rfl

end Cert.KernelIdeal.Tile

end
-- ==== Proof.TileSum.lean ====
/-
  The sum of one tile with its diagonal removed.

  A tile is a 256 × 256 array of penalties; it sits at row offset p · 256 and column offset q · 256 of the
  4096 × 4096 array of all pairs (p, q below 16). The row number of cell (r, c) is p · 256 + r and its column
  number q · 256 + c, both formed as 32-bit words; they are far below 2³², so the words are equal exactly when
  the numbers are. Where they are equal the cell is replaced by zero. The masked tile is then summed along its
  columns, the 256 row sums are summed, and the total is added to a running 1 × 1 accumulator. The changes of
  shape in between ([256] to [256, 1], [1] to [1, 1]) only rename indices. So the new accumulator is the old one
  plus the double sum over the cells of the tile, the cells with equal row and column number counted as zero.
-/
import proofs.«114842_j77025943486733_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-! ### Row and column numbers as words -/

/-- p · 256 + i computed on 32-bit words is the word of the number p · 256 + i. -/
theorem word_mul_add (p : Nat) (i : Nat) :
    IntOp.addi (Scalar.muli (BitVec.ofNat 32 p) 256#32) (BitVec.ofNat 32 i) = BitVec.ofNat 32 (p * 256 + i) := by
  show BitVec.ofNat 32 p * 256#32 + BitVec.ofNat 32 i = _
  apply BitVec.eq_of_toNat_eq
  simp only [BitVec.toNat_add, BitVec.toNat_mul, BitVec.toNat_ofNat]
  omega

/-- The row number of cell (r, c) of the tile at row offset p · 256. -/
theorem pay55_apply (p : Nat) (r c : Fin 256) :
    k0_pay55 (BitVec.ofNat 32 p) (ix2 r c) = BitVec.ofNat 32 (p * 256 + r.val) := by
  unfold k0_pay55
  refine (broadcastTo_apply _ _ (ix2 r c) (ix2 r (0 : Fin 1)) (fun a => ?_)).trans ?_
  · match a with
    | ⟨0, _⟩ => rfl
    | ⟨1, _⟩ => rfl
  · show IntOp.addi (Scalar.muli (BitVec.ofNat 32 p) 256#32) (iota .tc S256x1 32 [0] iota_S256x1_d0_w32 (ix2 r (0 : Fin 1))) = _
    rw [iota_single_apply]
    exact word_mul_add p r.val

/-- The column number of cell (r, c) of the tile at column offset q · 256. -/
theorem pay56_apply (q : Nat) (r c : Fin 256) :
    k0_pay56 (BitVec.ofNat 32 q) (ix2 r c) = BitVec.ofNat 32 (q * 256 + c.val) := by
  unfold k0_pay56
  refine (broadcastTo_apply _ _ (ix2 r c) (ix2 (0 : Fin 1) c) (fun a => ?_)).trans ?_
  · match a with
    | ⟨0, _⟩ => rfl
    | ⟨1, _⟩ => rfl
  · show IntOp.addi (Scalar.muli (BitVec.ofNat 32 q) 256#32) (iota .tc S1x256 32 [1] iota_S1x256_d1_w32 (ix2 (0 : Fin 1) c)) = _
    rw [iota_single_apply]
    exact word_mul_add q c.val

/-- Two numbers below 2³² have equal words exactly when they are equal. -/
theorem cmpi_eq_ofNat (a b : Nat) (ha : a < 4294967296) (hb : b < 4294967296) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h
    rw [beq_self_eq_true, if_pos rfl]
    rfl
  · have hne : BitVec.ofNat 32 a ≠ BitVec.ofNat 32 b := by
      intro e
      have := congrArg BitVec.toNat e
      simp only [BitVec.toNat_ofNat] at this
      omega
    rw [if_neg h, beq_eq_false_iff_ne.mpr hne]
    rfl

/-! ### The masked tile, its two sums, and the changes of shape -/

/-- One cell of the masked tile: zero where the row number equals the column number, the entry elsewhere. -/
theorem cell_apply (v : FVec Ideal S256x256 .f32) (p q : Nat) (hp : p < 16) (hq : q < 16) (r c : Fin 256) :
    select (cmpi .eq (k0_pay55 (BitVec.ofNat 32 p)) (k0_pay56 (BitVec.ofNat 32 q)))
        (broadcast S256x256 (Scalar.ofBits (F := Ideal) .f32 0x00000000#32)) v (ix2 r c)
      = if p * 256 + r.val = q * 256 + c.val then 0 else v (ix2 r c) := by
  show Scalar.select (IntOp.cmpi .eq (k0_pay55 (BitVec.ofNat 32 p) (ix2 r c)) (k0_pay56 (BitVec.ofNat 32 q) (ix2 r c)))
      (Ideal.ofBits .f32 0x00000000#32) (v (ix2 r c)) = _
  rw [pay55_apply, pay56_apply, cmpi_eq_ofNat _ _ (by omega) (by omega), Ideal.ofBits_zero_f32]
  by_cases h : p * 256 + r.val = q * 256 + c.val
  · rw [if_pos h, if_pos h]; exact select_one _ _
  · rw [if_neg h, if_neg h]; exact select_zero _ _

/-- The sum along the columns, read at row r. -/
theorem rowSum_apply (w : FVec Ideal S256x256 .f32) (h : S256x256.Reduces [1] S256) (hφ : FKind.Formats .f32)
    (hacc : (0x00000000#32 : BitVec 32) = FKind.add.neutral .f32 hφ) (r : Fin 256) :
    multiReduction (F := Ideal) .add [1] S256 w 0x00000000#32 h hφ hacc (ix1 r) = ∑ c : Fin 256, w (ix2 r c) := by
  refine (Ideal.multiReduction_add_single w 0x00000000#32 h hφ hacc (ix1 r)).trans ?_
  show ∑ c : Fin 256, w (h.lift (ix1 r) c) = _
  refine Finset.sum_congr rfl fun c _ => congrArg w ?_
  funext a
  apply Fin.ext
  match a with
  | ⟨0, _⟩ => rfl
  | ⟨1, _⟩ => rfl

/-- The sum along the rows of a one-column array. -/
theorem colSum_apply (u : FVec Ideal S256x1 .f32) (h : S256x1.Reduces [0] S1) (hφ : FKind.Formats .f32)
    (hacc : (0x00000000#32 : BitVec 32) = FKind.add.neutral .f32 hφ) (z : Fin 1) :
    multiReduction (F := Ideal) .add [0] S1 u 0x00000000#32 h hφ hacc (ix1 z) = ∑ r : Fin 256, u (ix2 r (0 : Fin 1)) := by
  refine (Ideal.multiReduction_add_single u 0x00000000#32 h hφ hacc (ix1 z)).trans ?_
  show ∑ r : Fin 256, u (h.lift (ix1 z) r) = _
  refine Finset.sum_congr rfl fun r _ => congrArg u ?_
  funext a
  apply Fin.ext
  match a with
  | ⟨0, _⟩ => rfl
  | ⟨1, _⟩ =>
    show (z : Nat) = 0
    omega

/-- A vector of 256 entries viewed as one column. -/
theorem cast_col_apply {α : Type} (x : S256.Idx → α) (h : S256.ShapeCasts S256x1) (r : Fin 256) :
    shapeCast S256x1 x h (ix2 r (0 : Fin 1)) = x (ix1 r) := by
  refine shapeCast_apply x h _ (ix1 r) ?_
  rw [Shape.rowMajor_val_one, Shape.rowMajor_val_two]
  show r.val = r.val * 1 + 0
  omega

/-- A vector of one entry viewed as a 1 × 1 array. -/
theorem cast_one_apply {α : Type} (x : S1.Idx → α) (h : S1.ShapeCasts S1x1) (y : S1x1.Idx) :
    shapeCast S1x1 x h y = x (ix1 (0 : Fin 1)) := by
  refine shapeCast_apply x h y (ix1 (0 : Fin 1)) ?_
  rw [Shape.rowMajor_val_one, Shape.rowMajor_val_two]
  have h0 : (y 0).val < 1 := (y 0).isLt
  have h1 : (y 1).val < 1 := (y 1).isLt
  show 0 = (y 0).val * 1 + (y 1).val
  omega

/-- THE TILE: the accumulator after the tile is the accumulator before it plus the sum of the tile's cells, a cell
    whose row number equals its column number counted as zero. -/
theorem pay1_apply (v : FVec Ideal S256x256 .f32) (p q : Nat) (hp : p < 16) (hq : q < 16) (acc : Vec Ideal S1x1 .f32)
    (y : S1x1.Idx) :
    k0_pay1 (F := Ideal) v (k0_pay55 (BitVec.ofNat 32 p)) (k0_pay56 (BitVec.ofNat 32 q)) acc y
      = acc y + ∑ r : Fin 256, ∑ c : Fin 256, (if p * 256 + r.val = q * 256 + c.val then 0 else v (ix2 r c)) := by
  unfold k0_pay1
  dsimp only
  rw [shapeCast_self]
  refine (addf_apply _ _ y).trans (congrArg (fun s => acc y + s) ?_)
  refine (cast_one_apply _ _ y).trans ?_
  refine (colSum_apply _ _ _ _ (0 : Fin 1)).trans ?_
  refine Finset.sum_congr rfl fun r _ => ?_
  refine (cast_col_apply _ _ r).trans ?_
  refine (rowSum_apply _ _ _ _ r).trans ?_
  exact Finset.sum_congr rfl fun c _ => cell_apply v p q hp hq r c

end Cert.KernelIdeal.Tile
end
-- ==== Proof.AlgSum.lean ====
/-
  The sum over all ordered pairs, taken at once and taken tile by tile.

  An index of a rank-3 array is its three coordinates, so a sum over the index set is the triple sum over the
  coordinates. A number below A · B is q · B + r for exactly one quotient q < A and remainder r < B, so a sum
  over it is the double sum over q and r. With 4096 = 16 · 256 for the rows and for the columns, and
  256 = 16 · 16 for the position of a tile (row of tiles times 16 plus column of tiles), the sum over all pairs
  (n, m) is the sum over the tiles of the sums over a tile's rows and columns. This holds in every commutative
  additive monoid; nothing about the summand is used.
-/
import proofs.«114842_j77025943486733_1_alg».proof.Proof.Spec

noncomputable section

open scoped BigOperators

namespace Cert.Collision

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it of a function of the coordinates is the triple sum. -/
theorem sum_idx3 {M : Type*} [AddCommMonoid M] {n0 n1 n2 : Nat} (g : Fin n0 → Fin n1 → Fin n2 → M) :
    ∑ j : (⟨3, ![n0, n1, n2]⟩ : Shape).Idx, g (j 0) (j 1) (j 2) = ∑ a : Fin n0, ∑ b : Fin n1, ∑ c : Fin n2, g a b c := by
  rw [← Equiv.sum_comp (idxEquiv3 (n0 := n0) (n1 := n1) (n2 := n2)).symm, Fintype.sum_prod_type]
  refine Finset.sum_congr rfl fun a _ => ?_
  rw [Fintype.sum_prod_type]
  rfl

/-- A sum over the numbers below N = A · B is the double sum over quotient and remainder by B. -/
theorem sum_fin_mul {M : Type*} [AddCommMonoid M] {A B N : ℕ} (hN : A * B = N) (h : Fin N → M)
    (lt : ∀ (q : Fin A) (r : Fin B), q.val * B + r.val < N) :
    ∑ n : Fin N, h n = ∑ q : Fin A, ∑ r : Fin B, h ⟨q.val * B + r.val, lt q r⟩ := by
  subst hN
  rw [← Equiv.sum_comp finProdFinEquiv h, Fintype.sum_prod_type]
  refine Finset.sum_congr rfl fun q _ => Finset.sum_congr rfl fun r _ => ?_
  congr 1
  apply Fin.ext
  show r.val + B * q.val = q.val * B + r.val
  rw [Nat.mul_comm, Nat.add_comm]

/-- The tile at position q₁ · 16 + q₂ has its rows in the q₁-th block of 256 … -/
theorem tileRow_mk (q1 q2 : Fin 16) (r : Fin 256) :
    tileRow ⟨q1.val * 16 + q2.val, by omega⟩ r = ⟨q1.val * 256 + r.val, by omega⟩ := by
  apply Fin.ext
  show (q1.val * 16 + q2.val) / 16 * 256 + r.val = q1.val * 256 + r.val
  omega

/-- … and its columns in the q₂-th. -/
theorem tileCol_mk (q1 q2 : Fin 16) (c : Fin 256) :
    tileCol ⟨q1.val * 16 + q2.val, by omega⟩ c = ⟨q2.val * 256 + c.val, by omega⟩ := by
  apply Fin.ext
  show (q1.val * 16 + q2.val) % 16 * 256 + c.val = q2.val * 256 + c.val
  omega

/-- All pairs of one batch, tile by tile. -/
theorem sum_pairs_tiled {M : Type*} [AddCommMonoid M] (g : Fin 4096 → Fin 4096 → M) :
    ∑ n : Fin 4096, ∑ m : Fin 4096, g n m
      = ∑ t : Fin 256, ∑ r : Fin 256, ∑ c : Fin 256, g (tileRow t r) (tileCol t c) := by
  calc ∑ n : Fin 4096, ∑ m : Fin 4096, g n m
      = ∑ q1 : Fin 16, ∑ r : Fin 256, ∑ m : Fin 4096, g ⟨q1.val * 256 + r.val, by omega⟩ m :=
        sum_fin_mul (A := 16) (B := 256) rfl (fun n => ∑ m : Fin 4096, g n m) (fun q r => by omega)
    _ = ∑ q1 : Fin 16, ∑ r : Fin 256, ∑ q2 : Fin 16, ∑ c : Fin 256,
          g ⟨q1.val * 256 + r.val, by omega⟩ ⟨q2.val * 256 + c.val, by omega⟩ :=
        Finset.sum_congr rfl fun q1 _ => Finset.sum_congr rfl fun r _ =>
          sum_fin_mul (A := 16) (B := 256) rfl (fun m => g ⟨q1.val * 256 + r.val, by omega⟩ m) (fun q r => by omega)
    _ = ∑ q1 : Fin 16, ∑ q2 : Fin 16, ∑ r : Fin 256, ∑ c : Fin 256,
          g ⟨q1.val * 256 + r.val, by omega⟩ ⟨q2.val * 256 + c.val, by omega⟩ :=
        Finset.sum_congr rfl fun q1 _ => Finset.sum_comm
    _ = ∑ q1 : Fin 16, ∑ q2 : Fin 16, ∑ r : Fin 256, ∑ c : Fin 256,
          g (tileRow ⟨q1.val * 16 + q2.val, by omega⟩ r) (tileCol ⟨q1.val * 16 + q2.val, by omega⟩ c) :=
        Finset.sum_congr rfl fun q1 _ => Finset.sum_congr rfl fun q2 _ => Finset.sum_congr rfl fun r _ =>
          Finset.sum_congr rfl fun c _ => by rw [tileRow_mk, tileCol_mk]
    _ = ∑ t : Fin 256, ∑ r : Fin 256, ∑ c : Fin 256, g (tileRow t r) (tileCol t c) :=
        (sum_fin_mul (A := 16) (B := 16) rfl
          (fun t => ∑ r : Fin 256, ∑ c : Fin 256, g (tileRow t r) (tileCol t c)) (fun q r => by omega)).symm

/-- THE REGROUPING: the sum over the index set [2, 4096, 4096] is the sum batch by batch, tile by tile. -/
theorem sum_idx_tiled {M : Type*} [AddCommMonoid M] (g : Fin 2 → Fin 4096 → Fin 4096 → M) :
    ∑ j : (⟨3, ![2, 4096, 4096]⟩ : Shape).Idx, g (j 0) (j 1) (j 2)
      = ∑ b : Fin 2, ∑ t : Fin 256, ∑ r : Fin 256, ∑ c : Fin 256, g b (tileRow t r) (tileCol t c) := by
  rw [sum_idx3 g]
  exact Finset.sum_congr rfl fun b _ => sum_pairs_tiled (g b)

end Cert.Collision

end
-- ==== Proof.KernelValue.lean ====
/-
  The kernel's result at the exact instance: the specification's total.

  One grid point adds to the accumulator cell the sum of its tile of masked penalties, and that tile sum is the
  specification's pair terms summed over the tile's rows and columns (the blocks are rows of the arrays; the
  tile's arithmetic is the pair's penalty; the mask's row and column numbers agree exactly on the diagonal). By
  induction along a batch the cell holds the tile sums so far, hence at the batch's last position the batch's total,
  which that position alone writes to the batch's entry of the [2, 1, 1] output array. The host then adds the two
  entries to zero and divides by the pair count.
-/
import proofs.«114842_j77025943486733_1_alg».proof.Proof.Accum
import proofs.«114842_j77025943486733_1_alg».proof.Proof.Blocks
import proofs.«114842_j77025943486733_1_alg».proof.Proof.SpecPoint
import proofs.«114842_j77025943486733_1_alg».proof.Proof.PenValue
import proofs.«114842_j77025943486733_1_alg».proof.Proof.TileSum
import proofs.«114842_j77025943486733_1_alg».proof.Proof.AlgSum
import Idealize.ShloMosaic.Lib.Pipeline.FrameSuffix

set_option maxRecDepth 16384

noncomputable section

open scoped BigOperators

namespace Cert.KernelIdeal.Tile

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.Collision

variable (m : (ℓ : Loc nD τ sig) → Buf (Elt Ideal) ℓ)

/-- The three argument arrays of core `c`. -/
abbrev argX (c : Dev nD) : Arr3 := m ((c : Thread nD τ).loc main_arg0)
abbrev argS (c : Dev nD) : Arr3 := m ((c : Thread nD τ).loc main_arg1)
abbrev argQ (c : Dev nD) : Arr4 := m ((c : Thread nD τ).loc main_arg2)

/-- The sum of the specification's pair terms over tile `j` of batch `b`. -/
def tileSum (X Sc : Arr3) (Q : Arr4) (b : Fin 2) (j : Fin 256) : EReal :=
  ∑ r : Fin 256, ∑ cc : Fin 256, kerPair X Sc Q b (tileRow j r) (tileCol j cc)

/-- ONE POINT: from the accumulator `acc`, the body at position `t` leaves `acc` plus the tile sum of the position's
    tile: the masked cell (r, cc) of the tile is the specification's pair term of row point r and column point cc —
    the blocks are rows of the arrays, the tile's arithmetic is `pairOf`, and the mask's row and column numbers agree
    exactly on the diagonal. -/
theorem accAfter_point (c : Dev nD) (t : Fin cfg0.N) (acc : Vec Ideal S1x1 .f32) (y : S1x1.Idx) :
    accAfter (F := Ideal) (grid0.coords t) (iblk m c 0 t) (iblk m c 1 t) (iblk m c 2 t) (iblk m c 3 t) (iblk m c 4 t)
        (iblk m c 5 t) acc y
      = acc y + tileSum (argX m c) (argS m c) (argQ m c) (bOf t) (pos t) := by
  obtain ⟨h0, h1, h2⟩ := coords_eq t
  have hN := lt512 t
  unfold accAfter
  rw [h1, h2, pay1_apply _ _ _ (by omega) (by omega)]
  congr 1
  unfold tileSum
  refine Finset.sum_congr rfl fun r _ => Finset.sum_congr rfl fun cc _ => ?_
  rw [kerPair_eq_pairOf, pen_apply]
  have hiff : (t.val / 16 % 16 * 256 + r.val = t.val % 16 * 256 + cc.val) ↔ tileRow (pos t) r = tileCol (pos t) cc := by
    rw [Fin.ext_iff]
    show _ ↔ t.val % 256 / 16 * 256 + r.val = t.val % 256 % 16 * 256 + cc.val
    have e1 : t.val % 256 / 16 = t.val / 16 % 16 := Nat.mod_mul_right_div_self t.val 16 16
    have e2 : t.val % 256 % 16 = t.val % 16 := Nat.mod_mod_of_dvd t.val (by norm_num : 16 ∣ 256)
    rw [e1, e2]
  by_cases hd : tileRow (pos t) r = tileCol (pos t) cc
  · rw [if_pos (hiff.mpr hd), if_pos hd]
  · rw [if_neg (fun h => hd (hiff.mp h)), if_neg hd]
    simp only [iblk0_apply, iblk1_apply, iblk2_apply, iblk3_apply, iblk4_apply, iblk5_apply]

/-- The tile sum of grid position `p` (zero beyond the grid). -/
def tileSumN (c : Dev nD) (p : ℕ) : EReal :=
  if h : p < cfg0.N then tileSum (argX m c) (argS m c) (argQ m c) (bOf ⟨p, h⟩) (pos ⟨p, h⟩) else 0

/-- The cell a batch starts from is zero. -/
theorem pay3_apply (y : S1x1.Idx) : k0_pay3 (F := Ideal) y = 0 := by
  unfold k0_pay3
  rw [shapeCast_self]
  exact Ideal.ofBits_zero_f32

/-- THE RUNNING SUM: after position n the cell holds the tile sums of the positions of n's batch up to n. -/
theorem accAt_value (c : Dev nD) : ∀ (n : ℕ) (h : n < cfg0.N) (y : S1x1.Idx),
    accAt m c n h y = ∑ j ∈ Finset.range (n % 256 + 1), tileSumN m c (n / 256 * 256 + j)
  | 0, h, y => by
    rw [accAt, accAfter_point, pay3_apply, zero_add]
    show _ = ∑ j ∈ Finset.range 1, tileSumN m c (0 + j)
    rw [Finset.sum_range_one]
    unfold tileSumN
    rw [dif_pos (show 0 + 0 < cfg0.N from h)]
  | n + 1, h, y => by
    have hN : n + 1 < 512 := lt_of_lt_of_eq h N_0
    rw [accAt, accAfter_point]
    by_cases h0 : (n + 1) % 256 = 0
    · rw [if_pos h0, pay3_apply, zero_add, h0]
      show _ = ∑ j ∈ Finset.range 1, tileSumN m c ((n + 1) / 256 * 256 + j)
      rw [Finset.sum_range_one]
      have e : (n + 1) / 256 * 256 + 0 = n + 1 := by omega
      rw [e]
      unfold tileSumN
      rw [dif_pos h]
    · rw [if_neg h0, accAt_value c n _ y]
      have e1 : (n + 1) % 256 = n % 256 + 1 := by omega
      have e2 : (n + 1) / 256 = n / 256 := by omega
      rw [e1, e2, Finset.sum_range_succ _ (n % 256 + 1)]
      congr 1
      have e3 : n / 256 * 256 + (n % 256 + 1) = n + 1 := by omega
      rw [e3]
      unfold tileSumN
      rw [dif_pos h]

/-- At a batch's last position the cell holds the batch's total: the sum of its 256 tile sums. -/
theorem accAt_last (c : Dev nD) (t : Fin cfg0.N) (h1 : t.val % 256 = 255) (y : S1x1.Idx) :
    accAt m c t.val t.isLt y = ∑ j : Fin 256, tileSum (argX m c) (argS m c) (argQ m c) (bOf t) j := by
  have hN := lt512 t
  rw [accAt_value, h1]
  show ∑ j ∈ Finset.range 256, tileSumN m c (t.val / 256 * 256 + j) = _
  rw [Finset.sum_range (fun j => tileSumN m c (t.val / 256 * 256 + j))]
  refine Finset.sum_congr rfl fun j _ => ?_
  have hlt : t.val / 256 * 256 + j.val < cfg0.N := by
    show _ < grid0.N
    rw [N_0]
    omega
  unfold tileSumN
  rw [dif_pos hlt]
  have eb : bOf ⟨t.val / 256 * 256 + j.val, hlt⟩ = bOf t := by
    apply Fin.ext
    show (t.val / 256 * 256 + j.val) / 256 = t.val / 256
    omega
  have ep : pos ⟨t.val / 256 * 256 + j.val, hlt⟩ = j := by
    apply Fin.ext
    show (t.val / 256 * 256 + j.val) % 256 = j.val
    omega
  rw [eb, ep]

/-- The output block's cell is the accumulator's cell. -/
theorem pay2_apply (v : Vec Ideal S1x1 .f32) (z : S1x1x1.Idx) : k0_pay2 (F := Ideal) v z = v (ix2 (0 : Fin 1) (0 : Fin 1)) := by
  unfold k0_pay2
  refine shapeCast_apply v _ z (ix2 (0 : Fin 1) (0 : Fin 1)) ?_
  have h1 : (S1x1.rowMajor (ix2 (0 : Fin 1) (0 : Fin 1))).val < 1 := (S1x1.rowMajor _).isLt
  have h2 : (S1x1x1.rowMajor z).val < 1 := (S1x1x1.rowMajor z).isLt
  omega

/-- A batch's total: the sum of its 256 tile sums. -/
def batchTotal (X Sc : Arr3) (Q : Arr4) (b : Fin 2) : EReal := ∑ j : Fin 256, tileSum X Sc Q b j

/-- What the [2, 1, 1] output array ends holding: entry (b, 0, 0) is batch b's total. -/
def outArr (c : Dev nD) : Buf (Elt Ideal) ((c : Thread nD τ).loc main_v3) :=
  fun i => batchTotal (argX m c) (argS m c) (argQ m c) (⟨(i 0).val, (i 0).isLt⟩ : Fin 2)

/-- The output window's block index: (batch, 0, 0); its blocks are never cut. -/
theorem idx6 : ∀ t : Fin cfg0.N, win0_6.index t (0 : Fin 3) = t.val / 256 ∧ win0_6.index t (1 : Fin 3) = 0
    ∧ win0_6.index t (2 : Fin 3) = 0 := (by decide +kernel : ∀ t : Fin grid0.N, _)
theorem xsize6 : ∀ (t : Fin cfg0.N) (a : Fin 3), win0_6.xsize (grid0.coords t) a = 1 :=
  (by decide +kernel : ∀ (t : Fin grid0.N) (a : Fin 3), _)

/-- The one write-back of a batch, at its last position, writes the batch's total into the batch's block. -/
theorem flushed6_eq (c : Dev nD) (t : Fin cfg0.N) (hf : (cfg0.win 6).flush t = true) :
    (dats m 0 c).flushed 6 t = ((cfg0.win 6).blk t).view.read (Elt Ideal) (outArr m c) := by
  have h1 : t.val % 256 = 255 := (flush0_6 t).mp hf
  have hi := idx6 t
  show (cfg0.win 6).cut (grid0.coords t) ((dats m 0 c).after 6 t) = _
  rw [after0_6, outs1_eq m c t h1]
  funext y
  rw [View.read_apply]
  show k0_pay2 (accAt m c t.val t.isLt) _ = outArr m c _
  rw [pay2_apply, accAt_last m c t h1]
  unfold outArr
  show batchTotal _ _ _ (bOf t) = batchTotal _ _ _ _
  congr 1
  apply Fin.ext
  show t.val / 256 = win0_6.index t (0 : Fin 3) * 1 + 1 * (y 0).val
  have hy : (y 0).val < 1 := (y 0).isLt
  rw [hi.1]
  omega

/-- The last position of batch `b`. -/
def lastOf (b : Fin 2) : Fin cfg0.N := ⟨b.val * 256 + 255, by show _ < grid0.N; rw [N_0]; omega⟩

/-- So the output array ends holding the two batch totals: every entry (b, 0, 0) lies in the block the last position of
    batch b writes back. -/
theorem final6 (c : Dev nD) : (dats m 0 c).arrAt 6 cfg0.N = outArr m c :=
  (dats m 0 c).arrAt_eq_of_cover 6 (outArr m c) (flushed6_eq m c) fun i => by
    have hb : (i 0).val < 2 := (i 0).isLt
    have h1 : (i 1).val < 1 := (i 1).isLt
    have h2 : (i 2).val < 1 := (i 2).isLt
    let t : Fin cfg0.N := lastOf ⟨(i 0).val, hb⟩
    have htv : t.val = (i 0).val * 256 + 255 := rfl
    have hi := idx6 t
    refine ⟨t, (flush0_6 t).mpr (by rw [htv]; omega), ?_⟩
    show i ∈ ((View.whole main_v3).slice (win0_6.rect t)).set
    rw [View.set_slice_whole, Rect.mem_set_unit]
    intro a
    match a with
    | ⟨0, _⟩ =>
      show win0_6.index t (0 : Fin 3) * win0_6.size (0 : Fin 3) ≤ (i 0 : Nat) ∧ (i 0 : Nat) < win0_6.index t (0 : Fin 3) * win0_6.size (0 : Fin 3) + win0_6.xsize (grid0.coords t) (0 : Fin 3)
      rw [hi.1, xsize6 t 0, show win0_6.size (0 : Fin 3) = 1 from rfl, htv]
      omega
    | ⟨1, _⟩ =>
      show win0_6.index t (1 : Fin 3) * win0_6.size (1 : Fin 3) ≤ (i 1 : Nat) ∧ (i 1 : Nat) < win0_6.index t (1 : Fin 3) * win0_6.size (1 : Fin 3) + win0_6.xsize (grid0.coords t) (1 : Fin 3)
      rw [hi.2.1, xsize6 t 1]
      omega
    | ⟨2, _⟩ =>
      show win0_6.index t (2 : Fin 3) * win0_6.size (2 : Fin 3) ≤ (i 2 : Nat) ∧ (i 2 : Nat) < win0_6.index t (2 : Fin 3) * win0_6.size (2 : Fin 3) + win0_6.xsize (grid0.coords t) (2 : Fin 3)
      rw [hi.2.2, xsize6 t 2]
      omega

/-- The same contents as a function to the extended reals. -/
def outVal (c : Dev nD) : S2x1x1.Idx → EReal :=
  fun i => batchTotal (argX m c) (argS m c) (argQ m c) (⟨(i 0).val, (i 0).isLt⟩ : Fin 2)

/-- THE HOST TAIL: the program's result is the sum of the output array's two entries over the pair count, which is the
    specification's total (the initial value of the host's sum is zero; an index of shape [2, 1, 1] is its first
    coordinate). -/
theorem tail_eq (c : Dev nD) :
    Pipeline.afterTail₀ cfgs (dats m) 0 (V0 m) [hostOps1] c main_v5
      = fun _ => kerTotal (argX m c) (argS m c) (argQ m c) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v3)
      = outArr m c from (Pipeline.withArrays_arr spec0 launch0.win.arr_inj c _ _ 6).trans (final6 m c)]
  funext z
  have hsum : Host.reduceAdd (F := Ideal) (outVal m c) (constant (F := Ideal) S_ .f32 0x00000000#32) reducesTo_S2x1x1_S_d0_1_2 h_S_ z
      = (constant (F := Ideal) S_ .f32 0x00000000#32) (Shape.Idx.first h_S_) + ∑ j : S2x1x1.Idx, outVal m c j := by
    simp only [Host.reduceAdd, Ideal.hostReduceAdd_def]
    exact Ideal.hostReduceAdd_total reducesTo_S2x1x1_S_d0_1_2 (fun b => b.elim0) (outVal m c) _ z
  show Ideal.div (Host.reduceAdd (F := Ideal) (outVal m c) (constant (F := Ideal) S_ .f32 0x00000000#32) reducesTo_S2x1x1_S_d0_1_2 h_S_ z)
    (Ideal.ofBits .f32 0x4C000000#32) = _
  rw [hsum, constant_apply, Ideal.ofBits_zero_f32, zero_add]
  unfold kerTotal
  refine congrArg (fun s => Ideal.div s cCount) ?_
  refine (show (∑ j : S2x1x1.Idx, outVal m c j) = _ from
    sum_idx3 (n0 := 2) (n1 := 1) (n2 := 1) (fun a _ _ => batchTotal (argX m c) (argS m c) (argQ m c) a)).trans ?_
  simp only [Finset.univ_unique, Finset.sum_singleton]
  rfl

/-- THE KERNEL'S RUN, READ: every weakly fair execution ends with the result at the specification's total of the three
    argument arrays, and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v5) = (fun _ => kerTotal (argX m c) (argS m c) (argQ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Tile

end
-- ==== Proof.RefDir.lean ====
/-
  The reference's first stretch, read at an ordered pair of points (n, m) of a batch b.

  The two positions are broadcast along the missing point axis and subtracted: coordinate i of the
  difference is X(b, n, i) - X(b, m, i). The squared length is summed from zero over the three
  coordinates, the regulariser is added, and the root is the distance. The difference divided,
  coordinate by coordinate, by the distance (broadcast along a new last axis) is the direction.
-/
import proofs.«114842_j77025943486733_1_alg».proof.Proof.RefRead
import proofs.«114842_j77025943486733_1_alg».proof.Proof.Spec

noncomputable section

open scoped BigOperators

namespace Cert.ReferenceIdeal.RefDir

open Cert.ReferenceIdeal Cert.ReferenceIdeal.ReadP Cert.Collision Idealize.ShloMosaic Idealize.ShloMosaic.ValueIdx

variable (X : (⟨S2x4096x3, .f32⟩ : BufTy).Contents (Elt Ideal)) (b : Fin 2) (n m : Fin 4096) (i : Fin 3)

/-- The row point's position, broadcast along the column axis, is read at the row point. -/
theorem idx_row : idx_main_v0 (idx_main_v2 (ix4 b n m i)) = ix3 b n i := by
  funext a; match a with | ⟨0, _⟩ => rfl | ⟨1, _⟩ => rfl | ⟨2, _⟩ => rfl

/-- The column point's position, broadcast along the row axis, is read at the column point. -/
theorem idx_col : idx_main_v1 (idx_main_v3 (ix4 b n m i)) = ix3 b m i := by
  funext a; match a with | ⟨0, _⟩ => rfl | ⟨1, _⟩ => rfl | ⟨2, _⟩ => rfl

/-- Coordinate i of the difference of the pair. -/
theorem diff_eq : val_main_v4 (F := Ideal) X (ix4 b n m i) = dX X b n m i := by
  rw [val_main_v4_apply, val_main_v2_apply, val_main_v0_apply, val_main_v3_apply, val_main_v1_apply, idx_row, idx_col]
  rfl

/-- The summed axis of the squared length runs over the pair's three coordinates. -/
theorem idx_sq (k : Fin 3) : idx_main_v6 (ix3 b n m) k = ix4 b n m k := by
  funext a; match a with | ⟨0, _⟩ => rfl | ⟨1, _⟩ => rfl | ⟨2, _⟩ => rfl | ⟨3, _⟩ => rfl

/-- The distance of the pair: the root of the squared length plus the regulariser. -/
theorem dist_eq : val_main_v9 (F := Ideal) X (ix3 b n m) = distSum X b n m := by
  rw [val_main_v9_apply, val_main_v8_apply, val_main_v6_apply, val_main_v7_apply, val_main_cst_apply, val_main_cst_0_apply]
  simp only [idx_sq, val_main_v5_apply, diff_eq, Ideal.ofBits_def, Ideal.ofBits_zero_f32, zero_add, Ideal.mulf_def,
    Ideal.addf_def, Ideal.hostUnary_sqrt_def]
  rfl

/-- The distance, broadcast along a new last axis, is read at the pair. -/
theorem idx_bc : idx_main_v10 (idx_main_v11 (ix4 b n m i)) = ix3 b n m := by
  funext a; match a with | ⟨0, _⟩ => rfl | ⟨1, _⟩ => rfl | ⟨2, _⟩ => rfl

/-- Coordinate i of the direction of the pair. -/
theorem dir_eq : val_main_v12 (F := Ideal) X (ix4 b n m i) = dirSum X b n m i := by
  rw [val_main_v12_apply, val_main_v11_apply, val_main_v10_apply, idx_bc, diff_eq, dist_eq]
  rfl

end Cert.ReferenceIdeal.RefDir

end
-- ==== Proof.RefQuat.lean ====
/-
  The rotation matrix's nine entries, each a quadratic form of one point's quaternion.

  The four components of the quaternion of point n of batch b are cut out of the array of
  quaternions as slices of extent one along the last axis and reshaped to lose that axis: component
  c is Q(b, n, c). Each entry is then formed from them by products, doublings and one sum or
  difference, in the order the rotation matrix with the diagonal's squares formed first writes them.
-/
import proofs.«114842_j77025943486733_1_alg».proof.Proof.RefRead
import proofs.«114842_j77025943486733_1_alg».proof.Proof.Spec

noncomputable section

namespace Cert.ReferenceIdeal.RefQuat

open Cert.ReferenceIdeal Cert.ReferenceIdeal.ReadP Cert.Collision Idealize.ShloMosaic Idealize.ShloMosaic.ValueIdx

variable (Q : (⟨S2x4096x4, .f32⟩ : BufTy).Contents (Elt Ideal)) (b : Fin 2) (n : Fin 4096)

/-! ### The four components -/

theorem idx_q0 : idx_main_v13 (idx_main_v14 (ix2 b n)) = ix3 b n (0 : Fin 4) := by
  have hb := b.isLt; have hn := n.isLt
  funext a
  match a with
  | ⟨0, _⟩ => exact Fin.ext (by show (b.val * 4096 + n.val) / 4096 = b.val; omega)
  | ⟨1, _⟩ => exact Fin.ext (by show (b.val * 4096 + n.val) / 1 % 4096 = n.val; omega)
  | ⟨2, _⟩ => rfl

theorem idx_q1 : idx_main_v15 (idx_main_v16 (ix2 b n)) = ix3 b n (1 : Fin 4) := by
  have hb := b.isLt; have hn := n.isLt
  funext a
  match a with
  | ⟨0, _⟩ => exact Fin.ext (by show (b.val * 4096 + n.val) / 4096 = b.val; omega)
  | ⟨1, _⟩ => exact Fin.ext (by show (b.val * 4096 + n.val) / 1 % 4096 = n.val; omega)
  | ⟨2, _⟩ => rfl

theorem idx_q2 : idx_main_v17 (idx_main_v18 (ix2 b n)) = ix3 b n (2 : Fin 4) := by
  have hb := b.isLt; have hn := n.isLt
  funext a
  match a with
  | ⟨0, _⟩ => exact Fin.ext (by show (b.val * 4096 + n.val) / 4096 = b.val; omega)
  | ⟨1, _⟩ => exact Fin.ext (by show (b.val * 4096 + n.val) / 1 % 4096 = n.val; omega)
  | ⟨2, _⟩ => rfl

theorem idx_q3 : idx_main_v19 (idx_main_v20 (ix2 b n)) = ix3 b n (3 : Fin 4) := by
  have hb := b.isLt; have hn := n.isLt
  funext a
  match a with
  | ⟨0, _⟩ => exact Fin.ext (by show (b.val * 4096 + n.val) / 4096 = b.val; omega)
  | ⟨1, _⟩ => exact Fin.ext (by show (b.val * 4096 + n.val) / 1 % 4096 = n.val; omega)
  | ⟨2, _⟩ => rfl

/-- The scalar part. -/
theorem q0 : val_main_v14 (F := Ideal) Q (ix2 b n) = Q (ix3 b n (0 : Fin 4)) := by
  rw [val_main_v14_apply, val_main_v13_apply, idx_q0]
/-- The first vector component. -/
theorem q1 : val_main_v16 (F := Ideal) Q (ix2 b n) = Q (ix3 b n (1 : Fin 4)) := by
  rw [val_main_v16_apply, val_main_v15_apply, idx_q1]
/-- The second vector component. -/
theorem q2 : val_main_v18 (F := Ideal) Q (ix2 b n) = Q (ix3 b n (2 : Fin 4)) := by
  rw [val_main_v18_apply, val_main_v17_apply, idx_q2]
/-- The third vector component. -/
theorem q3 : val_main_v20 (F := Ideal) Q (ix2 b n) = Q (ix3 b n (3 : Fin 4)) := by
  rw [val_main_v20_apply, val_main_v19_apply, idx_q3]

/-! ### The nine entries -/

/-- Unfolds an entry, operation by operation, down to the four components and the two constants. -/
local macro "unfold_entry" : tactic => `(tactic| simp only [
    val_main_v21_apply, val_main_cst_1_apply, val_main_v22_apply, val_main_v23_apply, val_main_cst_2_apply,
    val_main_v24_apply, val_main_v25_apply, val_main_v26_apply, val_main_cst_3_apply, val_main_v27_apply,
    val_main_v28_apply, val_main_v29_apply, val_main_cst_4_apply, val_main_v30_apply, val_main_v31_apply,
    val_main_v32_apply, val_main_cst_5_apply, val_main_v33_apply, val_main_v34_apply, val_main_v35_apply,
    val_main_v36_apply, val_main_cst_6_apply, val_main_v37_apply, val_main_v38_apply, val_main_v39_apply,
    val_main_cst_7_apply, val_main_v40_apply, val_main_v41_apply, val_main_v42_apply, val_main_v43_apply,
    val_main_cst_8_apply, val_main_v44_apply, val_main_v45_apply, val_main_v46_apply, val_main_cst_9_apply,
    val_main_v47_apply, val_main_v48_apply, val_main_v49_apply, val_main_v50_apply, val_main_v51_apply,
    val_main_cst_10_apply, val_main_v52_apply, val_main_v53_apply, val_main_cst_11_apply, val_main_v54_apply,
    val_main_v55_apply, val_main_v56_apply, val_main_cst_12_apply, val_main_v57_apply, val_main_v58_apply,
    val_main_v59_apply, val_main_cst_13_apply, val_main_v60_apply, val_main_v61_apply, val_main_v62_apply,
    val_main_cst_14_apply, val_main_v63_apply, val_main_v64_apply, val_main_v65_apply, val_main_v66_apply,
    val_main_cst_15_apply, val_main_v67_apply, val_main_v68_apply, val_main_v69_apply, val_main_cst_16_apply,
    val_main_v70_apply, val_main_v71_apply, val_main_v72_apply, val_main_v73_apply, val_main_cst_17_apply,
    val_main_v74_apply, val_main_v75_apply, val_main_v76_apply, val_main_cst_18_apply, val_main_v77_apply,
    val_main_v78_apply, val_main_v79_apply, val_main_v80_apply, val_main_v81_apply, val_main_cst_19_apply,
    val_main_v82_apply, val_main_v83_apply, val_main_cst_20_apply, val_main_v84_apply, val_main_v85_apply,
    val_main_v86_apply, val_main_cst_21_apply, val_main_v87_apply, val_main_v88_apply, val_main_v89_apply,
    q0, q1, q2, q3, Ideal.ofBits_def, Ideal.subf_def, Ideal.addf_def, Ideal.mulf_def])

/-- Entry (0, 0). -/
theorem e00 : val_main_v29 (F := Ideal) Q (ix2 b n) = RSq Q b n 0 0 := by
  unfold_entry
  rfl

/-- Entry (0, 1). -/
theorem e01 : val_main_v36 (F := Ideal) Q (ix2 b n) = RSq Q b n 0 1 := by
  unfold_entry
  rfl

/-- Entry (0, 2). -/
theorem e02 : val_main_v43 (F := Ideal) Q (ix2 b n) = RSq Q b n 0 2 := by
  unfold_entry
  rfl

/-- Entry (1, 0). -/
theorem e10 : val_main_v50 (F := Ideal) Q (ix2 b n) = RSq Q b n 1 0 := by
  unfold_entry
  rfl

/-- Entry (1, 1). -/
theorem e11 : val_main_v59 (F := Ideal) Q (ix2 b n) = RSq Q b n 1 1 := by
  unfold_entry
  rfl

/-- Entry (1, 2). -/
theorem e12 : val_main_v66 (F := Ideal) Q (ix2 b n) = RSq Q b n 1 2 := by
  unfold_entry
  rfl

/-- Entry (2, 0). -/
theorem e20 : val_main_v73 (F := Ideal) Q (ix2 b n) = RSq Q b n 2 0 := by
  unfold_entry
  rfl

/-- Entry (2, 1). -/
theorem e21 : val_main_v80 (F := Ideal) Q (ix2 b n) = RSq Q b n 2 1 := by
  unfold_entry
  rfl

/-- Entry (2, 2). -/
theorem e22 : val_main_v89 (F := Ideal) Q (ix2 b n) = RSq Q b n 2 2 := by
  unfold_entry
  rfl

end Cert.ReferenceIdeal.RefQuat

end
-- ==== Proof.RefRot.lean ====
/-
  The rotation matrix of a point, as the reference lays it out.

  Each of the nine entries is given a trailing axis of extent one; the nine are joined along that
  axis in row-major order, so position e of the joined axis holds entry (e / 3, e % 3); the joined
  axis of extent nine is then reshaped into a 3 x 3 pair of axes, which sends (i, j) back to position
  3 i + j. Read at (b, n, i, j) the result is entry (i, j) of the rotation matrix of point n.
-/
import proofs.«114842_j77025943486733_1_alg».proof.Proof.RefQuat

noncomputable section

namespace Cert.ReferenceIdeal.RefRot

open Cert.ReferenceIdeal Cert.ReferenceIdeal.ReadP Cert.ReferenceIdeal.RefQuat Cert.Collision Idealize.ShloMosaic
  Idealize.ShloMosaic.ValueIdx

variable (Q : (⟨S2x4096x4, .f32⟩ : BufTy).Contents (Elt Ideal)) (b : Fin 2) (n : Fin 4096)

/-! ### An entry with its trailing unit axis -/

theorem idx_u90 (z : Fin 1) : idx_main_v90 (ix3 b n z) = ix2 b n := by
  funext a; match a with | ⟨0, _⟩ => rfl | ⟨1, _⟩ => rfl
theorem piece00 : val_main_v90 (F := Ideal) Q (ix3 b n (0 : Fin 1)) = RSq Q b n 0 0 := by
  rw [val_main_v90_apply, idx_u90, e00]
theorem idx_u91 (z : Fin 1) : idx_main_v91 (ix3 b n z) = ix2 b n := by
  funext a; match a with | ⟨0, _⟩ => rfl | ⟨1, _⟩ => rfl
theorem piece01 : val_main_v91 (F := Ideal) Q (ix3 b n (0 : Fin 1)) = RSq Q b n 0 1 := by
  rw [val_main_v91_apply, idx_u91, e01]
theorem idx_u92 (z : Fin 1) : idx_main_v92 (ix3 b n z) = ix2 b n := by
  funext a; match a with | ⟨0, _⟩ => rfl | ⟨1, _⟩ => rfl
theorem piece02 : val_main_v92 (F := Ideal) Q (ix3 b n (0 : Fin 1)) = RSq Q b n 0 2 := by
  rw [val_main_v92_apply, idx_u92, e02]
theorem idx_u93 (z : Fin 1) : idx_main_v93 (ix3 b n z) = ix2 b n := by
  funext a; match a with | ⟨0, _⟩ => rfl | ⟨1, _⟩ => rfl
theorem piece10 : val_main_v93 (F := Ideal) Q (ix3 b n (0 : Fin 1)) = RSq Q b n 1 0 := by
  rw [val_main_v93_apply, idx_u93, e10]
theorem idx_u94 (z : Fin 1) : idx_main_v94 (ix3 b n z) = ix2 b n := by
  funext a; match a with | ⟨0, _⟩ => rfl | ⟨1, _⟩ => rfl
theorem piece11 : val_main_v94 (F := Ideal) Q (ix3 b n (0 : Fin 1)) = RSq Q b n 1 1 := by
  rw [val_main_v94_apply, idx_u94, e11]
theorem idx_u95 (z : Fin 1) : idx_main_v95 (ix3 b n z) = ix2 b n := by
  funext a; match a with | ⟨0, _⟩ => rfl | ⟨1, _⟩ => rfl
theorem piece12 : val_main_v95 (F := Ideal) Q (ix3 b n (0 : Fin 1)) = RSq Q b n 1 2 := by
  rw [val_main_v95_apply, idx_u95, e12]
theorem idx_u96 (z : Fin 1) : idx_main_v96 (ix3 b n z) = ix2 b n := by
  funext a; match a with | ⟨0, _⟩ => rfl | ⟨1, _⟩ => rfl
theorem piece20 : val_main_v96 (F := Ideal) Q (ix3 b n (0 : Fin 1)) = RSq Q b n 2 0 := by
  rw [val_main_v96_apply, idx_u96, e20]
theorem idx_u97 (z : Fin 1) : idx_main_v97 (ix3 b n z) = ix2 b n := by
  funext a; match a with | ⟨0, _⟩ => rfl | ⟨1, _⟩ => rfl
theorem piece21 : val_main_v97 (F := Ideal) Q (ix3 b n (0 : Fin 1)) = RSq Q b n 2 1 := by
  rw [val_main_v97_apply, idx_u97, e21]
theorem idx_u98 (z : Fin 1) : idx_main_v98 (ix3 b n z) = ix2 b n := by
  funext a; match a with | ⟨0, _⟩ => rfl | ⟨1, _⟩ => rfl
theorem piece22 : val_main_v98 (F := Ideal) Q (ix3 b n (0 : Fin 1)) = RSq Q b n 2 2 := by
  rw [val_main_v98_apply, idx_u98, e22]

/-! ### The nine joined: position e of the joined axis is piece e at its only position -/

theorem cat0 : val_main_v99 (F := Ideal) Q (ix3 b n (0 : Fin 9)) = RSq Q b n 0 0 := by
  unfold val_main_v99
  refine (concatenate_apply_piece _ _ _ (ix3 b n (0 : Fin 9)) 0 (by simp) S2x4096x1 _ rfl rfl 0 rfl
    (ix3 b n (0 : Fin 1)) ?_ rfl).trans (piece00 Q b n)
  intro c hc
  match c with
  | ⟨0, _⟩ => rfl
  | ⟨1, _⟩ => rfl
  | ⟨2, _⟩ => exact absurd rfl hc
theorem cat1 : val_main_v99 (F := Ideal) Q (ix3 b n (1 : Fin 9)) = RSq Q b n 0 1 := by
  unfold val_main_v99
  refine (concatenate_apply_piece _ _ _ (ix3 b n (1 : Fin 9)) 1 (by simp) S2x4096x1 _ rfl rfl 1 rfl
    (ix3 b n (0 : Fin 1)) ?_ rfl).trans (piece01 Q b n)
  intro c hc
  match c with
  | ⟨0, _⟩ => rfl
  | ⟨1, _⟩ => rfl
  | ⟨2, _⟩ => exact absurd rfl hc
theorem cat2 : val_main_v99 (F := Ideal) Q (ix3 b n (2 : Fin 9)) = RSq Q b n 0 2 := by
  unfold val_main_v99
  refine (concatenate_apply_piece _ _ _ (ix3 b n (2 : Fin 9)) 2 (by simp) S2x4096x1 _ rfl rfl 2 rfl
    (ix3 b n (0 : Fin 1)) ?_ rfl).trans (piece02 Q b n)
  intro c hc
  match c with
  | ⟨0, _⟩ => rfl
  | ⟨1, _⟩ => rfl
  | ⟨2, _⟩ => exact absurd rfl hc
theorem cat3 : val_main_v99 (F := Ideal) Q (ix3 b n (3 : Fin 9)) = RSq Q b n 1 0 := by
  unfold val_main_v99
  refine (concatenate_apply_piece _ _ _ (ix3 b n (3 : Fin 9)) 3 (by simp) S2x4096x1 _ rfl rfl 3 rfl
    (ix3 b n (0 : Fin 1)) ?_ rfl).trans (piece10 Q b n)
  intro c hc
  match c with
  | ⟨0, _⟩ => rfl
  | ⟨1, _⟩ => rfl
  | ⟨2, _⟩ => exact absurd rfl hc
theorem cat4 : val_main_v99 (F := Ideal) Q (ix3 b n (4 : Fin 9)) = RSq Q b n 1 1 := by
  unfold val_main_v99
  refine (concatenate_apply_piece _ _ _ (ix3 b n (4 : Fin 9)) 4 (by simp) S2x4096x1 _ rfl rfl 4 rfl
    (ix3 b n (0 : Fin 1)) ?_ rfl).trans (piece11 Q b n)
  intro c hc
  match c with
  | ⟨0, _⟩ => rfl
  | ⟨1, _⟩ => rfl
  | ⟨2, _⟩ => exact absurd rfl hc
theorem cat5 : val_main_v99 (F := Ideal) Q (ix3 b n (5 : Fin 9)) = RSq Q b n 1 2 := by
  unfold val_main_v99
  refine (concatenate_apply_piece _ _ _ (ix3 b n (5 : Fin 9)) 5 (by simp) S2x4096x1 _ rfl rfl 5 rfl
    (ix3 b n (0 : Fin 1)) ?_ rfl).trans (piece12 Q b n)
  intro c hc
  match c with
  | ⟨0, _⟩ => rfl
  | ⟨1, _⟩ => rfl
  | ⟨2, _⟩ => exact absurd rfl hc
theorem cat6 : val_main_v99 (F := Ideal) Q (ix3 b n (6 : Fin 9)) = RSq Q b n 2 0 := by
  unfold val_main_v99
  refine (concatenate_apply_piece _ _ _ (ix3 b n (6 : Fin 9)) 6 (by simp) S2x4096x1 _ rfl rfl 6 rfl
    (ix3 b n (0 : Fin 1)) ?_ rfl).trans (piece20 Q b n)
  intro c hc
  match c with
  | ⟨0, _⟩ => rfl
  | ⟨1, _⟩ => rfl
  | ⟨2, _⟩ => exact absurd rfl hc
theorem cat7 : val_main_v99 (F := Ideal) Q (ix3 b n (7 : Fin 9)) = RSq Q b n 2 1 := by
  unfold val_main_v99
  refine (concatenate_apply_piece _ _ _ (ix3 b n (7 : Fin 9)) 7 (by simp) S2x4096x1 _ rfl rfl 7 rfl
    (ix3 b n (0 : Fin 1)) ?_ rfl).trans (piece21 Q b n)
  intro c hc
  match c with
  | ⟨0, _⟩ => rfl
  | ⟨1, _⟩ => rfl
  | ⟨2, _⟩ => exact absurd rfl hc
theorem cat8 : val_main_v99 (F := Ideal) Q (ix3 b n (8 : Fin 9)) = RSq Q b n 2 2 := by
  unfold val_main_v99
  refine (concatenate_apply_piece _ _ _ (ix3 b n (8 : Fin 9)) 8 (by simp) S2x4096x1 _ rfl rfl 8 rfl
    (ix3 b n (0 : Fin 1)) ?_ rfl).trans (piece22 Q b n)
  intro c hc
  match c with
  | ⟨0, _⟩ => rfl
  | ⟨1, _⟩ => rfl
  | ⟨2, _⟩ => exact absurd rfl hc

/-! ### The joined axis reshaped to 3 x 3 -/

theorem idx_reshape (i j : Fin 3) :
    idx_main_v100 (ix4 b n i j)
      = ix3 b n (⟨3 * i.val + j.val, by have := i.isLt; have := j.isLt; omega⟩ : Fin 9) := by
  have hb := b.isLt; have hn := n.isLt; have hi := i.isLt; have hj := j.isLt
  funext a
  match a with
  | ⟨0, _⟩ => exact Fin.ext (by show (((b.val * 4096 + n.val) * 3 + i.val) * 3 + j.val) / 36864 = b.val; omega)
  | ⟨1, _⟩ => exact Fin.ext (by show (((b.val * 4096 + n.val) * 3 + i.val) * 3 + j.val) / 9 % 4096 = n.val; omega)
  | ⟨2, _⟩ => exact Fin.ext (by show (((b.val * 4096 + n.val) * 3 + i.val) * 3 + j.val) % 9 = 3 * i.val + j.val; omega)

/-- Entry (i, j) of the rotation matrix of point n, read off the reshaped array. -/
theorem rot_eq (i j : Fin 3) : val_main_v100 (F := Ideal) Q (ix4 b n i j) = RSq Q b n i j := by
  rw [val_main_v100_apply, idx_reshape]
  match i, j with
  | ⟨0, _⟩, ⟨0, _⟩ => exact cat0 Q b n
  | ⟨0, _⟩, ⟨1, _⟩ => exact cat1 Q b n
  | ⟨0, _⟩, ⟨2, _⟩ => exact cat2 Q b n
  | ⟨1, _⟩, ⟨0, _⟩ => exact cat3 Q b n
  | ⟨1, _⟩, ⟨1, _⟩ => exact cat4 Q b n
  | ⟨1, _⟩, ⟨2, _⟩ => exact cat5 Q b n
  | ⟨2, _⟩, ⟨0, _⟩ => exact cat6 Q b n
  | ⟨2, _⟩, ⟨1, _⟩ => exact cat7 Q b n
  | ⟨2, _⟩, ⟨2, _⟩ => exact cat8 Q b n

end Cert.ReferenceIdeal.RefRot

end
-- ==== Proof.RefRadius.lean ====
/-
  One radius of an ordered pair, as the reference forms it.

  The direction from n to m is taken through the rotation of the row point n: coordinate j of the
  result is the sum over i of direction i times entry (i, j). Each coordinate is scaled by the scale
  of the column point m, the three squares are summed from zero, and the root is guarded the way a
  safe norm guards it: the root of the sum where the sum is positive (the root's argument replaced by
  one elsewhere, so that it is never taken at zero), and zero elsewhere. Exchanging the two point
  axes gives the same quantity at the exchanged pair.
-/
import proofs.«114842_j77025943486733_1_alg».proof.Proof.RefDir
import proofs.«114842_j77025943486733_1_alg».proof.Proof.RefRot

noncomputable section

open scoped BigOperators

namespace Cert.ReferenceIdeal.RefRadius

open Cert.ReferenceIdeal Cert.ReferenceIdeal.ReadP Cert.Collision Idealize.ShloMosaic Idealize.ShloMosaic.ValueIdx

variable (X Sc : (⟨S2x4096x3, .f32⟩ : BufTy).Contents (Elt Ideal)) (Q : (⟨S2x4096x4, .f32⟩ : BufTy).Contents (Elt Ideal))
  (b : Fin 2) (n m : Fin 4096)

/-! ### The direction through the rotation of the row point -/

/-- The contraction reads the direction of the pair at the summed coordinate. -/
theorem idx_left (j k : Fin 3) : lidx_main_v101 (ix4 b n m j) k = ix4 b n m k := by
  funext a; match a with | ⟨0, _⟩ => rfl | ⟨1, _⟩ => rfl | ⟨2, _⟩ => rfl | ⟨3, _⟩ => rfl

/-- It reads the row point's matrix at row k, column j. -/
theorem idx_right (j k : Fin 3) : ridx_main_v101 (ix4 b n m j) k = ix4 b n k j := by
  funext a; match a with | ⟨0, _⟩ => rfl | ⟨1, _⟩ => rfl | ⟨2, _⟩ => rfl | ⟨3, _⟩ => rfl

/-- Coordinate j of the direction from n to m through the rotation of n. -/
theorem proj_eq (j : Fin 3) :
    val_main_v101 (F := Ideal) X Q (ix4 b n m j) = ∑ i : Fin 3, dirSum X b n m i * RSq Q b n i j := by
  rw [val_main_v101_apply]
  simp only [idx_left, idx_right, RefDir.dir_eq, RefRot.rot_eq]

/-! ### Scaled by the column point, squared and summed -/

/-- The scales, broadcast along the row axis, are read at the column point. -/
theorem idx_scale (j : Fin 3) : idx_main_v102 (idx_main_v103 (ix4 b n m j)) = ix3 b m j := by
  funext a; match a with | ⟨0, _⟩ => rfl | ⟨1, _⟩ => rfl | ⟨2, _⟩ => rfl

theorem scale_eq (j : Fin 3) : val_main_v103 (F := Ideal) Sc (ix4 b n m j) = Sc (ix3 b m j) := by
  rw [val_main_v103_apply, val_main_v102_apply, idx_scale]

/-- The summed axis of the squared length runs over the three coordinates. -/
theorem idx_sum (k : Fin 3) : idx_main_v106 (ix3 b n m) k = ix4 b n m k := by
  funext a; match a with | ⟨0, _⟩ => rfl | ⟨1, _⟩ => rfl | ⟨2, _⟩ => rfl | ⟨3, _⟩ => rfl

/-- The squared length of the rotated, scaled direction of the pair. -/
theorem slen_eq : val_main_v106 (F := Ideal) X Sc Q (ix3 b n m) = slenSum X Sc Q b n m := by
  rw [val_main_v106_apply, val_main_cst_22_apply]
  simp only [idx_sum, val_main_v105_apply, val_main_v104_apply, proj_eq, scale_eq, Ideal.ofBits_def,
    Ideal.ofBits_zero_f32, zero_add, Ideal.mulf_def]
  rfl

/-! ### The guarded root -/

/-- A choice on "s is positive", as the comparison's word decides it. -/
theorem select_pos {α : Type} (s : EReal) (u v : α) :
    Scalar.select (Ideal.cmp .ogt s 0) u v = if 0 < s then u else v := by
  by_cases h : 0 < s <;> simp [Scalar.select, Ideal.cmp, h]

/-- The radius of the pair: the guarded root of the squared length. -/
theorem radius_eq : val_main_v113 (F := Ideal) X Sc Q (ix3 b n m) = safeSqrt (slenSum X Sc Q b n m) := by
  rw [val_main_v113_apply, val_main_v108_apply, val_main_v112_apply, val_main_v111_apply, val_main_v110_apply,
    val_main_v107_apply, val_main_v109_apply, val_main_call1_v1_apply, val_main_call0_v1_apply,
    val_main_call1_v0_apply, val_main_call0_v0_apply, val_main_cst_23_apply, val_main_cst_24_apply,
    val_main_cst_25_apply, val_main_cst_26_apply, slen_eq]
  simp only [Ideal.ofBits_def, Ideal.ofBits_zero_f32, Ideal.cmpf_def, Ideal.hostUnary_sqrt_def, select_pos]
  rfl

/-! ### The exchanged pair -/

theorem idx_swap : idx_main_v114 (ix3 b n m) = ix3 b m n := by
  funext a; match a with | ⟨0, _⟩ => rfl | ⟨1, _⟩ => rfl | ⟨2, _⟩ => rfl

/-- With the two point axes exchanged, the radius of the exchanged pair. -/
theorem radius_swap_eq : val_main_v114 (F := Ideal) X Sc Q (ix3 b n m) = safeSqrt (slenSum X Sc Q b m n) := by
  rw [val_main_v114_apply, idx_swap, radius_eq]

end Cert.ReferenceIdeal.RefRadius

end
-- ==== Proof.RefPair.lean ====
/-
  The penalty of an ordered pair, and the diagonal's mask.

  The two radii are added, the distance is subtracted and the result is clipped at zero: the overlap
  o. Its penalty is o * o divided by one plus a tenth of o. The mask compares the row number with the
  column number as 32-bit words (the row number plus a zero word against the column number); both are
  below 4096, so the words agree exactly when the points do. Where the mask holds the pair's value is
  zero, elsewhere it is the penalty.
-/
import proofs.«114842_j77025943486733_1_alg».proof.Proof.RefRadius

noncomputable section

namespace Cert.ReferenceIdeal.RefPair

open Cert.ReferenceIdeal Cert.ReferenceIdeal.ReadP Cert.Collision Idealize.ShloMosaic Idealize.ShloMosaic.ValueIdx

variable (X Sc : (⟨S2x4096x3, .f32⟩ : BufTy).Contents (Elt Ideal)) (Q : (⟨S2x4096x4, .f32⟩ : BufTy).Contents (Elt Ideal))
  (b : Fin 2) (n m : Fin 4096)

/-- The overlap of the pair, clipped at zero. -/
theorem overlap_eq :
    val_main_v117 (F := Ideal) X Sc Q (ix3 b n m)
      = max (safeSqrt (slenSum X Sc Q b n m) + safeSqrt (slenSum X Sc Q b m n) - distSum X b n m) 0 := by
  rw [val_main_v117_apply, val_main_v116_apply, val_main_v115_apply, val_main_call2_v0_apply, val_main_call2_cst_apply,
    RefRadius.radius_eq, RefRadius.radius_swap_eq, RefDir.dist_eq]
  simp only [Ideal.ofBits_def, Ideal.ofBits_zero_f32]
  rfl

/-- The penalty of the pair's overlap. -/
theorem penalty_eq :
    val_main_v123 (F := Ideal) X Sc Q (ix3 b n m)
      = penalty (max (safeSqrt (slenSum X Sc Q b n m) + safeSqrt (slenSum X Sc Q b m n) - distSum X b n m) 0) := by
  rw [val_main_v123_apply, val_main_v118_apply, val_main_v122_apply, val_main_v121_apply, val_main_v120_apply,
    val_main_v119_apply, val_main_cst_27_apply, val_main_cst_28_apply, overlap_eq]
  rfl

/-! ### The mask -/

/-- The mask, broadcast along the batch axis, is read at (row, column). -/
theorem idx_mask : idx_main_v129 (idx_main_call3_v1 (ix3 b n m)) = ix2 n m := by
  funext a; match a with | ⟨0, _⟩ => rfl | ⟨1, _⟩ => rfl

/-- Two point numbers are the same 32-bit word exactly when they are the same number. -/
theorem word_inj : BitVec.ofNat 32 n.val = BitVec.ofNat 32 m.val ↔ n = m := by
  constructor
  · intro h
    have h' := congrArg BitVec.toNat h
    simp only [BitVec.toNat_ofNat] at h'
    exact Fin.ext (by have := n.isLt; have := m.isLt; omega)
  · rintro rfl; rfl

/-- The mask holds exactly on the diagonal. -/
theorem mask_eq : val_main_call3_v1 (F := Ideal) (ix3 b n m) = 1#1 ↔ n = m := by
  rw [val_main_call3_v1_apply, val_main_v129_apply, idx_mask, val_main_v128_apply, val_main_v127_apply,
    val_main_v124_apply, val_main_v125_apply, val_main_v126_apply, val_main_c_apply, IntOp.cmpi_eq]
  show IntOp.addi (BitVec.ofNat 32 n.val) 0#32 = BitVec.ofNat 32 m.val ↔ n = m
  rw [show IntOp.addi (BitVec.ofNat 32 n.val) 0#32 = BitVec.ofNat 32 n.val from BitVec.add_zero _]
  exact word_inj n m

/-! ### The pair's value -/

/-- Zero on the diagonal, the penalty elsewhere. -/
theorem pair_eq : val_main_v130 (F := Ideal) X Sc Q (ix3 b n m) = refPair X Sc Q b n m := by
  rw [val_main_v130_apply, val_main_call3_v2_apply, val_main_call3_v0_apply, val_main_cst_29_apply, penalty_eq]
  unfold refPair Scalar.select
  by_cases h : n = m
  · have hm : val_main_call3_v1 (F := Ideal) (ix3 b n m) = 1 := (mask_eq b n m).2 h
    rw [if_pos hm, if_pos h]
    exact Ideal.ofBits_zero_f32
  · have hm : ¬ val_main_call3_v1 (F := Ideal) (ix3 b n m) = 1 := fun h' => h ((mask_eq b n m).1 h')
    rw [if_neg hm, if_neg h]

end Cert.ReferenceIdeal.RefPair

end
-- ==== Proof.RefValue.lean ====
/-
  The reference's result is the mean penalty of the specification.

  The pairs' values are summed from zero over all of the batch, row and column axes at once, and the
  sum is divided by the number of ordered pairs, 2 * 4096 * 4096 = 2^25. Every pair's value is the
  specification's, so the result, an array without axes, is the specification's total.
-/
import proofs.«114842_j77025943486733_1_alg».proof.Proof.RefRead
import proofs.«114842_j77025943486733_1_alg».proof.Proof.Spec
import proofs.«114842_j77025943486733_1_alg».proof.Proof.RefPair

noncomputable section

open scoped BigOperators

namespace Cert.ReferenceIdeal.RefValue

open Cert.ReferenceIdeal Cert.ReferenceIdeal.ReadP Cert.Collision Idealize.ShloMosaic Idealize.ShloMosaic.ValueIdx
  Idealize.ShloMosaic.TcCoe Idealize.SL.Sem

variable (X Sc : (⟨S2x4096x3, .f32⟩ : BufTy).Contents (Elt Ideal)) (Q : (⟨S2x4096x4, .f32⟩ : BufTy).Contents (Elt Ideal))

/-- The sum over all pairs, each pair read through its three coordinates. -/
theorem sum_pairs :
    ∑ j : S2x4096x4096.Idx, val_main_v130 (F := Ideal) X Sc Q j
      = ∑ j : (⟨3, ![2, 4096, 4096]⟩ : Shape).Idx, refPair X Sc Q (j 0) (j 1) (j 2) :=
  Finset.sum_congr rfl fun j _ =>
    (congrArg (val_main_v130 (F := Ideal) X Sc Q) (eq_ix3 j)).trans (RefPair.pair_eq X Sc Q (j 0) (j 1) (j 2))

/-- The reference's result, at every index of the array without axes, is the mean penalty over all ordered pairs. -/
theorem result_eq : val_main_v132 (F := Ideal) X Sc Q = fun _ => refTotal X Sc Q := by
  funext i
  rw [val_main_v132_apply, val_main_v131_apply, val_main_cst_30_apply, val_main_cst_31_apply, sum_pairs]
  simp only [Ideal.ofBits_def, Ideal.ofBits_zero_f32, zero_add, Ideal.hostDivf_def]
  rfl

/-- The same for the term a run of the reference leaves in its result: it is the mean penalty of the three
    argument arrays as the run found them. -/
theorem res_eq (m : (ℓ : Loc nD τ sig) → Buf (Elt Ideal) ℓ) (c : Dev nD) :
    Cert.ReferenceIdeal.ValueP.res_main_v132 (F := Ideal) m c
      = fun _ => refTotal (m ((c.tc : Thread nD τ).loc main_arg0)) (m ((c.tc : Thread nD τ).loc main_arg1))
          (m ((c.tc : Thread nD τ).loc main_arg2)) :=
  (val_main_v132_eq (F := Ideal) m c).trans (result_eq _ _ _)

end Cert.ReferenceIdeal.RefValue

end
-- ==== Proof.AlgReal.lean ====
/-
  Extended reals that are real numbers.

  The sum, difference, product and negative of real values are real; the constants 1 and 2 of the rotation
  matrix are real and the regulariser ε is a positive real. Two sign laws are recorded that fail at the
  infinities and hold for real values: b − a = −(a − b), and (−a) + (−b) + (−c) = −(a + b + c).
-/
import proofs.«114842_j77025943486733_1_alg».proof.Proof.Spec

noncomputable section

namespace Cert.Collision

open Idealize.ShloMosaic

/-- An extended real that is a real number. -/
def IsReal (x : EReal) : Prop := ∃ r : ℝ, x = (r : EReal)

namespace IsReal

variable {x y : EReal}

theorem coe (r : ℝ) : IsReal (r : EReal) := ⟨r, rfl⟩

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem mul (hx : IsReal x) (hy : IsReal y) : IsReal (x * y) := by
  obtain ⟨a, rfl⟩ := hx; obtain ⟨b, rfl⟩ := hy; exact ⟨a * b, (EReal.coe_mul a b).symm⟩

theorem neg (hx : IsReal x) : IsReal (-x) := by
  obtain ⟨a, rfl⟩ := hx; exact ⟨-a, (EReal.coe_neg a).symm⟩

end IsReal

/-- Every entry of an array of real values is real. -/
theorem Finite.isReal {ι : Type} {A : ι → EReal} (h : Finite A) (i : ι) : IsReal (A i) := h i

/-! ### The constants -/

/-- ε is a positive real number. -/
theorem cEps_pos : ∃ e : ℝ, 0 < e ∧ cEps = (e : EReal) :=
  ⟨11258999 * (2 ^ 50)⁻¹, by norm_num, by simp [Ideal.ofBits, Ideal.ieee]⟩

/-- The constant 2 is real. -/
theorem cTwo_isReal : IsReal cTwo := ⟨8388608 * (2 ^ 22)⁻¹, by simp [Ideal.ofBits, Ideal.ieee]⟩

/-- The constant 1 is real. -/
theorem cOne_isReal : IsReal cOne := ⟨8388608 * (2 ^ 23)⁻¹, by simp [Ideal.ofBits, Ideal.ieee]⟩

/-! ### Two sign laws of real values -/

/-- b − a = −(a − b). (At a = b = +∞ the left side is −∞ and the right side +∞.) -/
theorem sub_eq_neg_sub {a b : EReal} (ha : IsReal a) (hb : IsReal b) : b - a = -(a - b) := by
  obtain ⟨x, rfl⟩ := ha; obtain ⟨y, rfl⟩ := hb
  rw [← EReal.coe_sub, ← EReal.coe_sub, ← EReal.coe_neg, neg_sub]

/-- (−a) + (−b) + (−c) = −(a + b + c). (At a = +∞, b = −∞ the two sides differ.) -/
theorem neg_add_neg_add_neg {a b c : EReal} (ha : IsReal a) (hb : IsReal b) (hc : IsReal c) :
    -a + -b + -c = -(a + b + c) := by
  obtain ⟨x, rfl⟩ := ha; obtain ⟨y, rfl⟩ := hb; obtain ⟨z, rfl⟩ := hc
  rw [← EReal.coe_neg, ← EReal.coe_neg, ← EReal.coe_neg, ← EReal.coe_add, ← EReal.coe_add, ← EReal.coe_add,
    ← EReal.coe_add, ← EReal.coe_neg]
  congr 1
  ring

end Cert.Collision

end
-- ==== Proof.AlgSwap.lean ====
/-
  Exchanging the two points of a pair, for real inputs.

  The difference vector of the exchanged pair is the opposite one; its regularised length is the same (a sum of
  squares), and that length is a positive real number, so the direction of the exchanged pair is the opposite
  direction. A row vector times a real matrix changes sign with the vector, and the squared length of the scaled
  result does not see the sign: the squared radius along the direction from m to n equals the one along the
  direction from n to m, whichever rotation and scales are used.
-/
import proofs.«114842_j77025943486733_1_alg».proof.Proof.AlgReal

noncomputable section

namespace Cert.Collision

open Idealize.ShloMosaic Idealize.ShloMosaic.ValueIdx

/-- A sum of three squares does not see the signs. -/
theorem sq3_neg (a b c : EReal) : sq3 (-a) (-b) (-c) = sq3 a b c := by
  simp only [sq3, neg_mul_neg]

/-- A quotient changes sign with its numerator (the denominator not zero). -/
theorem div_neg_left (a d : EReal) (hd : d ≠ 0) : Ideal.div (-a) d = -(Ideal.div a d) := by
  unfold Ideal.div
  rw [if_neg hd, if_neg hd, neg_mul]

/-- u · r changes sign with u, the three products being real. -/
theorem dot3_neg {u0 u1 u2 r0 r1 r2 : EReal} (h0 : IsReal (u0 * r0)) (h1 : IsReal (u1 * r1))
    (h2 : IsReal (u2 * r2)) : dot3 (-u0) (-u1) (-u2) r0 r1 r2 = -(dot3 u0 u1 u2 r0 r1 r2) := by
  unfold dot3
  rw [neg_mul, neg_mul, neg_mul]
  exact neg_add_neg_add_neg h0 h1 h2

/-- Every entry of the rotation matrix of a real quaternion is real. -/
theorem rot_isReal {w x y z : EReal} (hw : IsReal w) (hx : IsReal x) (hy : IsReal y) (hz : IsReal z)
    (i j : Fin 3) : IsReal (rot w x y z i j) := by
  have h1 := cOne_isReal
  have h2 := cTwo_isReal
  match i, j with
  | 0, 0 => exact (h1.sub ((h2.mul hy).mul hy)).sub ((h2.mul hz).mul hz)
  | 0, 1 => exact ((h2.mul hx).mul hy).sub ((h2.mul hz).mul hw)
  | 0, 2 => exact ((h2.mul hx).mul hz).add ((h2.mul hy).mul hw)
  | 1, 0 => exact ((h2.mul hx).mul hy).add ((h2.mul hz).mul hw)
  | 1, 1 => exact (h1.sub ((h2.mul hx).mul hx)).sub ((h2.mul hz).mul hz)
  | 1, 2 => exact ((h2.mul hy).mul hz).sub ((h2.mul hx).mul hw)
  | 2, 0 => exact ((h2.mul hx).mul hz).sub ((h2.mul hy).mul hw)
  | 2, 1 => exact ((h2.mul hy).mul hz).add ((h2.mul hx).mul hw)
  | 2, 2 => exact (h1.sub ((h2.mul hx).mul hx)).sub ((h2.mul hy).mul hy)

section Pair

variable (X Sc : Arr3) (Q : Arr4) (b : Fin 2)

/-- The difference of two real positions is real. -/
theorem dX_isReal (hX : Finite X) (n m : Fin 4096) (i : Fin 3) : IsReal (dX X b n m i) :=
  (hX.isReal _).sub (hX.isReal _)

/-- The difference vector of the exchanged pair is the opposite one. -/
theorem dX_swap (hX : Finite X) (n m : Fin 4096) (i : Fin 3) : dX X b m n i = -(dX X b n m i) :=
  sub_eq_neg_sub (hX.isReal _) (hX.isReal _)

/-- The regularised length of a real difference vector is a positive real number. -/
theorem dist_pos (hX : Finite X) (n m : Fin 4096) : ∃ d : ℝ, 0 < d ∧ dist X b n m = (d : EReal) := by
  obtain ⟨a0, h0⟩ := dX_isReal X b hX n m 0
  obtain ⟨a1, h1⟩ := dX_isReal X b hX n m 1
  obtain ⟨a2, h2⟩ := dX_isReal X b hX n m 2
  obtain ⟨e, he, hε⟩ := cEps_pos
  have hr : 0 < a0 * a0 + a1 * a1 + a2 * a2 + e := by
    have := mul_self_nonneg a0
    have := mul_self_nonneg a1
    have := mul_self_nonneg a2
    linarith
  refine ⟨Real.sqrt (a0 * a0 + a1 * a1 + a2 * a2 + e), Real.sqrt_pos.mpr hr, ?_⟩
  unfold dist sq3
  rw [h0, h1, h2, hε, ← EReal.coe_mul, ← EReal.coe_mul, ← EReal.coe_mul, ← EReal.coe_add, ← EReal.coe_add,
    ← EReal.coe_add, Ideal.sqrt_coe, if_neg (not_lt.mpr hr.le)]

/-- The regularised length is the same for the exchanged pair. -/
theorem dist_swap (hX : Finite X) (n m : Fin 4096) : dist X b m n = dist X b n m := by
  unfold dist
  rw [dX_swap X b hX n m 0, dX_swap X b hX n m 1, dX_swap X b hX n m 2, sq3_neg]

/-- The direction between two real positions is real. -/
theorem dir_isReal (hX : Finite X) (n m : Fin 4096) (i : Fin 3) : IsReal (dir X b n m i) := by
  obtain ⟨d, hd, hdist⟩ := dist_pos X b hX n m
  obtain ⟨a, ha⟩ := dX_isReal X b hX n m i
  unfold dir
  rw [hdist, Ideal.div_coe hd.ne', ha, ← EReal.coe_mul]
  exact IsReal.coe _

/-- The direction of the exchanged pair is the opposite one. -/
theorem dir_swap (hX : Finite X) (n m : Fin 4096) (i : Fin 3) : dir X b m n i = -(dir X b n m i) := by
  obtain ⟨d, hd, hdist⟩ := dist_pos X b hX n m
  have hne : dist X b n m ≠ 0 := by
    rw [hdist]
    exact EReal.coe_ne_zero.mpr hd.ne'
  unfold dir
  rw [dist_swap X b hX n m, dX_swap X b hX n m i, div_neg_left _ _ hne]

/-- Every entry of the rotation matrix of a point with a real quaternion is real. -/
theorem R_isReal (hQ : Finite Q) (k : Fin 4096) (i j : Fin 3) : IsReal (R Q b k i j) :=
  rot_isReal (hQ.isReal _) (hQ.isReal _) (hQ.isReal _) (hQ.isReal _) i j

/-- The rotated direction of the exchanged pair is the opposite one. -/
theorem proj_swap (hX : Finite X) (hQ : Finite Q) (n m k : Fin 4096) (j : Fin 3) :
    proj X Q b m n k j = -(proj X Q b n m k j) := by
  unfold proj
  rw [dir_swap X b hX n m 0, dir_swap X b hX n m 1, dir_swap X b hX n m 2]
  exact dot3_neg ((dir_isReal X b hX n m 0).mul (R_isReal Q b hQ k 0 j))
    ((dir_isReal X b hX n m 1).mul (R_isReal Q b hQ k 1 j)) ((dir_isReal X b hX n m 2).mul (R_isReal Q b hQ k 2 j))

/-- THE EXCHANGE LAW: the squared radius along the direction from m to n is the one along the direction from n to m. -/
theorem slen_swap (hX : Finite X) (hQ : Finite Q) (n m k l : Fin 4096) :
    slen X Sc Q b m n k l = slen X Sc Q b n m k l := by
  unfold slen
  rw [proj_swap X Q b hX hQ n m k 0, proj_swap X Q b hX hQ n m k 1, proj_swap X Q b hX hQ n m k 2, neg_mul, neg_mul,
    neg_mul, sq3_neg]

end Pair

end Cert.Collision

end
-- ==== Proof.Algebra.lean ====
/-
  The two spellings of the mean collision penalty agree on real inputs.

  Pair by pair: a sum over three indices is the sum of its three terms added left to right, so the two
  regularised lengths, the two directions and the two squared radii are the same expressions once the rotation
  matrix is seen not to depend on whether 2·a² is read as (2·a)·a or as 2·(a·a). A squared radius is a sum of
  squares, hence not negative, and on such a number the guarded square root is the square root (both are 0
  at 0). What is left is the second radius: one spelling takes it along the direction from m to n, the other
  along the direction from n to m, and for real inputs the two squared radii are equal. So the two penalties
  of every ordered pair agree, and the two totals are the same sum, grouped in two ways, divided by the same count.
-/
import proofs.«114842_j77025943486733_1_alg».proof.Proof.AlgSwap
import proofs.«114842_j77025943486733_1_alg».proof.Proof.AlgSum

noncomputable section

open scoped BigOperators

namespace Cert.Collision

open Idealize.ShloMosaic Idealize.ShloMosaic.ValueIdx

/-! ### The rotation matrix, the squares of its diagonal formed first or last -/

/-- (2·a)·a = 2·(a·a), entry by entry; it holds for every extended real. -/
theorem rotSq_eq_rot (w x y z : EReal) (i j : Fin 3) : rotSq w x y z i j = rot w x y z i j := by
  match i, j with
  | 0, 0 => simp only [rot, rotSq, mul_assoc]
  | 0, 1 => rfl
  | 0, 2 => rfl
  | 1, 0 => rfl
  | 1, 1 => simp only [rot, rotSq, mul_assoc]
  | 1, 2 => rfl
  | 2, 0 => rfl
  | 2, 1 => rfl
  | 2, 2 => simp only [rot, rotSq, mul_assoc]

/-! ### Squares and the guarded root -/

/-- A square is not negative, at the infinities too. -/
theorem mul_self_nonneg_ereal (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- A sum of three squares is not negative. -/
theorem sq3_nonneg (a b c : EReal) : 0 ≤ sq3 a b c :=
  add_nonneg (add_nonneg (mul_self_nonneg_ereal a) (mul_self_nonneg_ereal b)) (mul_self_nonneg_ereal c)

/-- On a number that is not negative the guarded root is the root: they can differ only at 0, where both are 0. -/
theorem safeSqrt_of_nonneg {s : EReal} (h : 0 ≤ s) : safeSqrt s = Ideal.sqrt s := by
  unfold safeSqrt
  rcases h.lt_or_eq with h | h
  · rw [if_pos h, if_pos h]
  · subst h
    rw [if_neg (lt_irrefl _), ← EReal.coe_zero, Ideal.sqrt_coe, if_neg (lt_irrefl _), Real.sqrt_zero]

section Pair

variable (X Sc : Arr3) (Q : Arr4) (b : Fin 2)

/-- The two rotation matrices of a point are the same matrix. -/
theorem RSq_eq_R (k : Fin 4096) (i j : Fin 3) : RSq Q b k i j = R Q b k i j :=
  rotSq_eq_rot _ _ _ _ i j

/-- The regularised length, the squares summed over three indices or added left to right. -/
theorem distSum_eq_dist (n m : Fin 4096) : distSum X b n m = dist X b n m := by
  unfold distSum dist sq3
  rw [Fin.sum_univ_three]

/-- The direction. -/
theorem dirSum_eq_dir (n m : Fin 4096) (i : Fin 3) : dirSum X b n m i = dir X b n m i := by
  unfold dirSum dir
  rw [distSum_eq_dist]

/-- The squared radius along the direction from n to m, in the frame of n scaled by m. -/
theorem slenSum_eq_slen (n m : Fin 4096) : slenSum X Sc Q b n m = slen X Sc Q b n m n m := by
  unfold slenSum slen sq3 proj dot3
  simp only [Fin.sum_univ_three, dirSum_eq_dir, RSq_eq_R]

/-- A squared radius is not negative. -/
theorem slen_nonneg (n m k l : Fin 4096) : 0 ≤ slen X Sc Q b n m k l := sq3_nonneg _ _ _

/-- THE PAIRS: for real positions and quaternions the two penalties of an ordered pair agree. -/
theorem kerPair_eq_refPair (hX : Finite X) (hQ : Finite Q) (n m : Fin 4096) :
    kerPair X Sc Q b n m = refPair X Sc Q b n m := by
  unfold kerPair refPair
  rw [slenSum_eq_slen X Sc Q b n m, slenSum_eq_slen X Sc Q b m n, distSum_eq_dist,
    safeSqrt_of_nonneg (slen_nonneg X Sc Q b n m n m), safeSqrt_of_nonneg (slen_nonneg X Sc Q b m n m n),
    slen_swap X Sc Q b hX hQ n m m n]

end Pair

/-- THE TOTALS: on real inputs the mean penalty summed tile by tile is the mean penalty summed at once. -/
theorem kerTotal_eq_refTotal (X Sc : Arr3) (Q : Arr4) (hX : Finite X) (hSc : Finite Sc) (hQ : Finite Q) :
    kerTotal X Sc Q = refTotal X Sc Q := by
  unfold kerTotal refTotal
  rw [sum_idx_tiled (refPair X Sc Q)]
  refine congrArg (fun s => Ideal.div s cCount) ?_
  exact Finset.sum_congr rfl fun b _ => Finset.sum_congr rfl fun t _ => Finset.sum_congr rfl fun r _ =>
    Finset.sum_congr rfl fun c _ => kerPair_eq_refPair X Sc Q b hX hQ (tileRow t r) (tileCol t c)

end Cert.Collision

end
-- ==== Proof.FiniteInputs.lean ====
/-
  From the precondition to real inputs.

  The precondition says, of each of the three argument arrays, that |x| < +∞ holds at every entry, the three
  statements joined by "and". A conjunction that is true has true parts; a conjunction over all entries of an
  array that is true is true at each entry; and an extended real x with max(x, −x) < +∞ is neither +∞ (then
  the maximum is +∞) nor −∞ (then −x is +∞), so it is a real number.
-/
import proofs.«114842_j77025943486733_1_alg».proof.Defs
import proofs.«114842_j77025943486733_1_alg».proof.Proof.Spec
import Idealize.ShloMosaic.Lib.ReduceAll

noncomputable section

namespace Cert.Collision

open Idealize.ShloMosaic Idealize.SL.Sem Idealize.ShloMosaic.ValueIdx

/-- An extended real whose absolute value is below +∞ (the word 0x7F800000 denotes +∞) is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the three argument arrays, on every device, is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread Cert.KernelIdeal.nD Cert.KernelIdeal.τ).loc Cert.KernelIdeal.main_arg0) : Arr3)
    ∧ Finite (m ((c.tc : Thread Cert.KernelIdeal.nD Cert.KernelIdeal.τ).loc Cert.KernelIdeal.main_arg1) : Arr3)
    ∧ Finite (m ((c.tc : Thread Cert.KernelIdeal.nD Cert.KernelIdeal.τ).loc Cert.KernelIdeal.main_arg2) : Arr4) := by
  -- the scalar shape has one index
  haveI : Subsingleton Cert.Pre_finite_inputs.S_.Idx := ⟨fun a b => funext fun d => d.elim0⟩
  have h0 := congrFun (h c) ValueIdx.ix0
  dsimp only [Cert.Pre_finite_inputs.fn] at h0
  -- (p₀ ∧ p₁) ∧ p₂ is true: each part is
  obtain ⟨h01, h2⟩ := IntOp.andi_eq_one.1 h0
  obtain ⟨h0', h1⟩ := IntOp.andi_eq_one.1 h01
  -- each part is a conjunction over all entries of one array
  refine ⟨fun i => ?_, fun i => ?_, fun i => ?_⟩
  · exact real_of_abs_lt_top _ (Host.reduce_andi_all _ _ _ _ ix0 h0' i)
  · exact real_of_abs_lt_top _ (Host.reduce_andi_all _ _ _ _ ix0 h1 i)
  · exact real_of_abs_lt_top _ (Host.reduce_andi_all _ _ _ _ ix0 h2 i)

end Cert.Collision

end
-- ==== Proof.lean ====
/-
  The certificate of the collision regulariser: the tiled kernel against the all-pairs reference.

  Both programs compute the mean, over the 2 · 4096 · 4096 ordered pairs of points of two batches, of a penalty of the
  pair's overlap. The reference forms every pair's term in arrays of all pairs and sums them at once; the kernel walks
  256 × 256 tiles of pairs, keeps one running cell per batch, writes a batch's total when its last tile is done, and
  the host adds the two totals and divides by the pair count.

  The three frames: the two kernel programs' are the generated frame certificates; the reference has no kernel, and
  its frame is its run with the result dropped. The idealization changed no operation, so there is nothing to
  preserve. For the value claim both results are named by ONE function of the argument arrays, the specification's
  tiled total: the kernel's run ends there by the induction along the grid (KernelValue); the reference's run ends at
  the specification's all-pairs total (RefValue); and the two totals agree on finite inputs (Algebra) — commutativity
  and associativity of the extended reals' sum carry the regrouping of the pairs into tiles and of the sums of three,
  and the one step that needs real numbers is the second radius, which the reference takes at the exchanged pair,
  along the opposite direction: squares do not see the sign, but only for finite coordinates is the difference of
  two coordinates the negative of the reversed difference. The precondition gives exactly that finiteness.
-/
import proofs.«114842_j77025943486733_1_alg».proof.Defs
import proofs.«114842_j77025943486733_1_alg».proof.Proof.Gen.Kernel
import proofs.«114842_j77025943486733_1_alg».proof.Proof.Gen.Kernel.Frame
import proofs.«114842_j77025943486733_1_alg».proof.Proof.Gen.KernelIdeal
import proofs.«114842_j77025943486733_1_alg».proof.Proof.Gen.KernelIdeal.Frame
import proofs.«114842_j77025943486733_1_alg».proof.Proof.Gen.ReferenceIdeal
import proofs.«114842_j77025943486733_1_alg».proof.Proof.Gen.Pre_finite_inputs
import proofs.«114842_j77025943486733_1_alg».proof.Proof.KernelValue
import proofs.«114842_j77025943486733_1_alg».proof.Proof.RefValue
import proofs.«114842_j77025943486733_1_alg».proof.Proof.Algebra
import proofs.«114842_j77025943486733_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals both programs end at the specification's tiled total of the (agreeing) arguments: the
    kernel by its run read along the grid, the reference by its run read operation by operation and the agreement
    of the two totals on finite inputs. -/
theorem algebraic : Cert.algebraic_KernelIdeal_ReferenceIdeal := by
  intro m ρ m' ρ' hpre hagree
  refine ⟨fun c => fun _ => Cert.Collision.kerTotal (Cert.KernelIdeal.Tile.argX m c) (Cert.KernelIdeal.Tile.argS m c)
    (Cert.KernelIdeal.Tile.argQ m c), Cert.KernelIdeal.Tile.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2⟩ := Cert.Collision.finite_of_pre m hpre c
  rw [Cert.ReferenceIdeal.RefValue.res_eq m' c, (hagree c).1, (hagree c).2.1, (hagree c).2.2]
  exact congrArg (fun v => fun _ => v) (Cert.Collision.kerTotal_eq_refTotal _ _ _ h0 h1 h2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
